-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000 : Shape := ⟨1, ![320000]⟩
abbrev S128x128 : Shape := ⟨2, ![128, 128]⟩
abbrev S128x64 : Shape := ⟨2, ![128, 64]⟩
abbrev S64x64 : Shape := ⟨2, ![64, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S128x64 .f32) (main_arg7 : FVec F S64x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  main_v28

def fn {F : FTy → Type} [FloatOps F] (main_arg0 : FVec F S10000x128 .f32) (main_arg1 : IVec S320000 32) (main_arg2 : IVec S320000 32) (main_arg3 : FVec F S320000 .f32) (main_arg4 : FVec F S128x128 .f32) (main_arg5 : FVec F S128x128 .f32) (main_arg6 : FVec F S128x64 .f32) (main_arg7 : FVec F S64x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S10000x128 : Shape := ⟨2, ![10000, 128]⟩
abbrev S320000 : Shape := ⟨1, ![320000]⟩
abbrev S128x128 : Shape := ⟨2, ![128, 128]⟩
abbrev S128x64 : Shape := ⟨2, ![128, 64]⟩
abbrev S64x64 : Shape := ⟨2, ![64, 64]⟩
abbrev S320000x1 : Shape := ⟨2, ![320000, 1]⟩
abbrev S_ : Shape := ⟨0, ![]⟩
abbrev S320000x128 : Shape := ⟨2, ![320000, 128]⟩
abbrev S10000x64 : Shape := ⟨2, ![10000, 64]⟩
abbrev S320000x64 : Shape := ⟨2, ![320000, 64]⟩
abbrev S10000x10000 : Shape := ⟨2, ![10000, 10000]⟩
abbrev S200x64 : Shape := ⟨2, ![200, 64]⟩
abbrev S200x10000 : Shape := ⟨2, ![200, 10000]⟩

abbrev nBuf : Space → Nat
  | .hbm => 67
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S128x128, .f32⟩
  | .hbm, ⟨5, _⟩ => ⟨S128x128, .f32⟩
  | .hbm, ⟨6, _⟩ => ⟨S128x64, .f32⟩
  | .hbm, ⟨7, _⟩ => ⟨S64x64, .f32⟩
  | .hbm, ⟨8, _⟩ => ⟨S10000x128, .f32⟩
  | .hbm, ⟨9, _⟩ => ⟨S320000x1, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x128, .f32⟩
  | .hbm, ⟨19, _⟩ => ⟨S320000x128, .f32⟩
  | .hbm, ⟨20, _⟩ => ⟨S320000x128, .f32⟩
  | .hbm, ⟨21, _⟩ => ⟨S_, .f32⟩
  | .hbm, ⟨22, _⟩ => ⟨S10000x128, .f32⟩
  | .hbm, ⟨23, _⟩ => ⟨S320000x1, .i32⟩
  | .hbm, ⟨24, _⟩ => ⟨S10000x128, .f32⟩
  | .hbm, ⟨25, _⟩ => ⟨S10000x128, .f32⟩
  | .hbm, ⟨26, _⟩ => ⟨S320000x1, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000x128, .f32⟩
  | .hbm, ⟨36, _⟩ => ⟨S320000x128, .f32⟩
  | .hbm, ⟨37, _⟩ => ⟨S320000x128, .f32⟩
  | .hbm, ⟨38, _⟩ => ⟨S_, .f32⟩
  | .hbm, ⟨39, _⟩ => ⟨S10000x128, .f32⟩
  | .hbm, ⟨40, _⟩ => ⟨S320000x1, .i32⟩
  | .hbm, ⟨41, _⟩ => ⟨S10000x128, .f32⟩
  | .hbm, ⟨42, _⟩ => ⟨S10000x64, .f32⟩
  | .hbm, ⟨43, _⟩ => ⟨S320000x1, .f32⟩
  | .hbm, ⟨44, _⟩ => ⟨S_, .i32⟩
  | .hbm, ⟨45, _⟩ => ⟨S320000, .i32⟩
  | .hbm, ⟨46, _⟩ => ⟨S320000, .i1⟩
  | .hbm, ⟨47, _⟩ => ⟨S_, .i32⟩
  | .hbm, ⟨48, _⟩ => ⟨S320000, .i32⟩
  | .hbm, ⟨49, _⟩ => ⟨S320000, .i32⟩
  | .hbm, ⟨50, _⟩ => ⟨S320000, .i32⟩
  | .hbm, ⟨51, _⟩ => ⟨S320000x1, .i32⟩
  | .hbm, ⟨52, _⟩ => ⟨S320000x64, .f32⟩
  | .hbm, ⟨53, _⟩ => ⟨S320000x64, .f32⟩
  | .hbm, ⟨54, _⟩ => ⟨S320000x64, .f32⟩
  | .hbm, ⟨55, _⟩ => ⟨S_, .f32⟩
  | .hbm, ⟨56, _⟩ => ⟨S10000x64, .f32⟩
  | .hbm, ⟨57, _⟩ => ⟨S320000x1, .i32⟩
  | .hbm, ⟨58, _⟩ => ⟨S10000x64, .f32⟩
  | .hbm, ⟨59, _⟩ => ⟨S10000x64, .f32⟩
  | .hbm, ⟨60, _⟩ => ⟨S64x64, .f32⟩
  | .hbm, ⟨61, _⟩ => ⟨S64x64, .f32⟩
  | .hbm, ⟨62, _⟩ => ⟨S_, .f32⟩
  | .hbm, ⟨63, _⟩ => ⟨S64x64, .f32⟩
  | .hbm, ⟨64, _⟩ => ⟨S64x64, .f32⟩
  | .hbm, ⟨65, _⟩ => ⟨S10000x64, .f32⟩
  | .hbm, ⟨66, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S200x64, .f32⟩
  | .local _ .vmem, ⟨15, _⟩ => ⟨S200x64, .f32⟩
  | .local _ .vmem, ⟨16, _⟩ => ⟨S10000x64, .f32⟩
  | .local _ .vmem, ⟨17, _⟩ => ⟨S200x10000, .f32⟩
  | .local _ .vmem, ⟨18, _⟩ => ⟨S200x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc4_stg0_0 : Ref sig .tc := ⟨.vmem, 11, rfl⟩
abbrev cc4_stg1_0 : Ref sig .tc := ⟨.vmem, 12, rfl⟩
abbrev cc4_stg2_0 : Ref sig .tc := ⟨.vmem, 13, rfl⟩
abbrev cc5_stg0_0 : Ref sig .tc := ⟨.vmem, 14, rfl⟩
abbrev cc5_stg0_1 : Ref sig .tc := ⟨.vmem, 15, rfl⟩
abbrev cc5_stg1_0 : Ref sig .tc := ⟨.vmem, 16, rfl⟩
abbrev cc5_stg2_0 : Ref sig .tc := ⟨.vmem, 17, rfl⟩
abbrev cc5_stg2_1 : Ref sig .tc := ⟨.vmem, 18, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc4_sem0_0 : DmaSem sig := 11
abbrev cc4_sem1_0 : DmaSem sig := 12
abbrev cc4_sem2_0 : DmaSem sig := 13
abbrev cc5_sem0_0 : DmaSem sig := 14
abbrev cc5_sem0_1 : DmaSem sig := 15
abbrev cc5_sem1_0 : DmaSem sig := 16
abbrev cc5_sem2_0 : DmaSem sig := 17
abbrev cc5_sem2_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S10000x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S10000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S10000x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S200x10000 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S320000x1_S320000x64_0_1 : S320000x1.BroadcastsInDim S320000x64 (![0, 1] : Fin 2 → Fin S320000x64.rank)
  bcast_S_S10000x64 : S_.BroadcastsInDim S10000x64 (![] : Fin 0 → Fin S10000x64.rank)
  shapeCasts_S10000x64_S10000x64 : S10000x64.ShapeCasts S10000x64
  transposes_S64x64_S64x64_1_0 : S64x64.Transposes [1, 0] S64x64
  bcast_S_S64x64 : S_.BroadcastsInDim S64x64 (![] : Fin 0 → Fin S64x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S200x10000_S200x10000_0_0 : ∀ a, (![0, 0] : Fin 2 → Nat) a + S200x10000.size a ≤ S200x10000.size a
  h_S200x10000 : 0 < S200x10000.numel
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x64_S10000x64_1_0_0_1_n_n_wf : DotDims.WF S10000x128 S128x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x64_S10000x64_1_0_0_1_n_n_wf : DotDims.WF S10000x64 S64x64 S10000x64 [1] [0] [0] [1] [] []
  dot_S200x64_S10000x64_S200x10000_1_1_0_0_n_n_wf : DotDims.WF S200x64 S10000x64 S200x10000 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .f32 = 32 ∨ (Rect.block (s := S10000x128) S10000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S10000x128.size a
  hwx2_0 : ∀ i : grid2.Coords, EltTy.bits .f32 = 32 ∨ (Rect.block (s := S10000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S10000x64.size a
  hwx2_2 : ∀ i : grid2.Coords, EltTy.bits .f32 = 32 ∨ (Rect.block (s := S10000x64) S10000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S10000x64.size a
  hwx3_0 : ∀ i : grid3.Coords, EltTy.bits .f32 = 32 ∨ (Rect.block (s := S10000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S10000x64.size a
  hwx4_0 : ∀ i : grid4.Coords, EltTy.bits .f32 = 32 ∨ (Rect.block (s := S10000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S10000x64.size a
  hwx4_2 : ∀ i : grid4.Coords, EltTy.bits .f32 = 32 ∨ (Rect.block (s := S10000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x64.size a ≤ S10000x64.size a
  hwx5_0 : ∀ i : grid5.Coords, EltTy.bits .f32 = 32 ∨ (Rect.block (s := S10000x64) S200x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .f32 = 32 ∨ (Rect.block (s := S10000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S200x10000.size a ≤ S10000x10000.size a
  hwx5_2 : ∀ i : grid5.Coords, EltTy.bits .f32 = 32 ∨ (Rect.block (s := S10000x10000) S200x10000.size (cc5_transform_2 i) (hinb5_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S10000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S10000x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S10000x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v42) S10000x64.size cc3_transform_1 reads3_1 true true 1 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v42) S10000x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v46) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S10000x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S200x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v48) S200x10000.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x128 : Shape := ⟨2, ![10000, 128]⟩
abbrev S320000 : Shape := ⟨1, ![320000]⟩
abbrev S128x128 : Shape := ⟨2, ![128, 128]⟩
abbrev S128x64 : Shape := ⟨2, ![128, 64]⟩
abbrev S64x64 : Shape := ⟨2, ![64, 64]⟩
abbrev S320000x1 : Shape := ⟨2, ![320000, 1]⟩
abbrev S_ : Shape := ⟨0, ![]⟩
abbrev S320000x128 : Shape := ⟨2, ![320000, 128]⟩
abbrev S10000x64 : Shape := ⟨2, ![10000, 64]⟩
abbrev S320000x64 : Shape := ⟨2, ![320000, 64]⟩
abbrev S64x10000 : Shape := ⟨2, ![64, 10000]⟩
abbrev S10000x10000 : Shape := ⟨2, ![10000, 10000]⟩

abbrev nBuf : Space → Nat
  | .hbm => 120
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S128x128, .f32⟩
  | .hbm, ⟨5, _⟩ => ⟨S128x128, .f32⟩
  | .hbm, ⟨6, _⟩ => ⟨S128x64, .f32⟩
  | .hbm, ⟨7, _⟩ => ⟨S64x64, .f32⟩
  | .hbm, ⟨8, _⟩ => ⟨S10000x128, .f32⟩
  | .hbm, ⟨9, _⟩ => ⟨S320000x1, .f32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S320000x128, .f32⟩
  | .hbm, ⟨19, _⟩ => ⟨S320000x128, .f32⟩
  | .hbm, ⟨20, _⟩ => ⟨S320000x128, .f32⟩
  | .hbm, ⟨21, _⟩ => ⟨S_, .f32⟩
  | .hbm, ⟨22, _⟩ => ⟨S10000x128, .f32⟩
  | .hbm, ⟨23, _⟩ => ⟨S320000x1, .i32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .i1⟩
  | .hbm, ⟨28, _⟩ => ⟨S_, .f32⟩
  | .hbm, ⟨29, _⟩ => ⟨S10000x128, .f32⟩
  | .hbm, ⟨30, _⟩ => ⟨S10000x128, .i1⟩
  | .hbm, ⟨31, _⟩ => ⟨S_, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S_, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S320000x1, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S320000x128, .f32⟩
  | .hbm, ⟨51, _⟩ => ⟨S320000x128, .f32⟩
  | .hbm, ⟨52, _⟩ => ⟨S320000x128, .f32⟩
  | .hbm, ⟨53, _⟩ => ⟨S_, .f32⟩
  | .hbm, ⟨54, _⟩ => ⟨S10000x128, .f32⟩
  | .hbm, ⟨55, _⟩ => ⟨S320000x1, .i32⟩
  | .hbm, ⟨56, _⟩ => ⟨S10000x128, .f32⟩
  | .hbm, ⟨57, _⟩ => ⟨S_, .f32⟩
  | .hbm, ⟨58, _⟩ => ⟨S10000x128, .f32⟩
  | .hbm, ⟨59, _⟩ => ⟨S10000x128, .i1⟩
  | .hbm, ⟨60, _⟩ => ⟨S_, .f32⟩
  | .hbm, ⟨61, _⟩ => ⟨S10000x128, .f32⟩
  | .hbm, ⟨62, _⟩ => ⟨S10000x128, .i1⟩
  | .hbm, ⟨63, _⟩ => ⟨S_, .f32⟩
  | .hbm, ⟨64, _⟩ => ⟨S_, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x64, .f32⟩
  | .hbm, ⟨73, _⟩ => ⟨S320000x1, .f32⟩
  | .hbm, ⟨74, _⟩ => ⟨S_, .i32⟩
  | .hbm, ⟨75, _⟩ => ⟨S320000, .i32⟩
  | .hbm, ⟨76, _⟩ => ⟨S320000, .i1⟩
  | .hbm, ⟨77, _⟩ => ⟨S_, .i32⟩
  | .hbm, ⟨78, _⟩ => ⟨S320000, .i32⟩
  | .hbm, ⟨79, _⟩ => ⟨S320000, .i32⟩
  | .hbm, ⟨80, _⟩ => ⟨S320000, .i32⟩
  | .hbm, ⟨81, _⟩ => ⟨S320000x1, .i32⟩
  | .hbm, ⟨82, _⟩ => ⟨S320000x64, .f32⟩
  | .hbm, ⟨83, _⟩ => ⟨S320000x64, .f32⟩
  | .hbm, ⟨84, _⟩ => ⟨S320000x64, .f32⟩
  | .hbm, ⟨85, _⟩ => ⟨S_, .f32⟩
  | .hbm, ⟨86, _⟩ => ⟨S10000x64, .f32⟩
  | .hbm, ⟨87, _⟩ => ⟨S320000x1, .i32⟩
  | .hbm, ⟨88, _⟩ => ⟨S10000x64, .f32⟩
  | .hbm, ⟨89, _⟩ => ⟨S_, .f32⟩
  | .hbm, ⟨90, _⟩ => ⟨S10000x64, .f32⟩
  | .hbm, ⟨91, _⟩ => ⟨S10000x64, .i1⟩
  | .hbm, ⟨92, _⟩ => ⟨S_, .f32⟩
  | .hbm, ⟨93, _⟩ => ⟨S10000x64, .f32⟩
  | .hbm, ⟨94, _⟩ => ⟨S10000x64, .i1⟩
  | .hbm, ⟨95, _⟩ => ⟨S_, .f32⟩
  | .hbm, ⟨96, _⟩ => ⟨S_, .f32⟩
  | .hbm, ⟨97, _⟩ => ⟨S10000x64, .f32⟩
  | .hbm, ⟨98, _⟩ => ⟨S10000x64, .f32⟩
  | .hbm, ⟨99, _⟩ => ⟨S10000x64, .f32⟩
  | .hbm, ⟨100, _⟩ => ⟨S_, .f32⟩
  | .hbm, ⟨101, _⟩ => ⟨S10000x64, .f32⟩
  | .hbm, ⟨102, _⟩ => ⟨S10000x64, .f32⟩
  | .hbm, ⟨103, _⟩ => ⟨S10000x64, .f32⟩
  | .hbm, ⟨104, _⟩ => ⟨S64x64, .f32⟩
  | .hbm, ⟨105, _⟩ => ⟨S64x64, .f32⟩
  | .hbm, ⟨106, _⟩ => ⟨S_, .f32⟩
  | .hbm, ⟨107, _⟩ => ⟨S64x64, .f32⟩
  | .hbm, ⟨108, _⟩ => ⟨S64x64, .f32⟩
  | .hbm, ⟨109, _⟩ => ⟨S64x10000, .f32⟩
  | .hbm, ⟨110, _⟩ => ⟨S64x10000, .f32⟩
  | .hbm, ⟨111, _⟩ => ⟨S10000x10000, .f32⟩
  | .hbm, ⟨112, _⟩ => ⟨S10000x10000, .f32⟩
  | .hbm, ⟨113, _⟩ => ⟨S10000x10000, .f32⟩
  | .hbm, ⟨114, _⟩ => ⟨S_, .f32⟩
  | .hbm, ⟨115, _⟩ => ⟨S10000x10000, .f32⟩
  | .hbm, ⟨116, _⟩ => ⟨S10000x10000, .f32⟩
  | .hbm, ⟨117, _⟩ => ⟨S_, .f32⟩
  | .hbm, ⟨118, _⟩ => ⟨S10000x10000, .f32⟩
  | .hbm, ⟨119, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_cst_1 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v4 : Ref sig .tc := ⟨.hbm, 34, rfl⟩
abbrev main_call0_v5 : Ref sig .tc := ⟨.hbm, 35, rfl⟩
abbrev main_call0_cst_2 : Ref sig .tc := ⟨.hbm, 36, rfl⟩
abbrev main_call0_v6 : Ref sig .tc := ⟨.hbm, 37, rfl⟩
abbrev main_call0_v7 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_1 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call1_cst : Ref sig .tc := ⟨.hbm, 57, rfl⟩
abbrev main_call1_v0 : Ref sig .tc := ⟨.hbm, 58, rfl⟩
abbrev main_call1_v1 : Ref sig .tc := ⟨.hbm, 59, rfl⟩
abbrev main_call1_cst_0 : Ref sig .tc := ⟨.hbm, 60, rfl⟩
abbrev main_call1_v2 : Ref sig .tc := ⟨.hbm, 61, rfl⟩
abbrev main_call1_v3 : Ref sig .tc := ⟨.hbm, 62, rfl⟩
abbrev main_call1_cst_1 : Ref sig .tc := ⟨.hbm, 63, rfl⟩
abbrev main_call1_call0_v0 : Ref sig .tc := ⟨.hbm, 64, rfl⟩
abbrev main_call1_call0_v1 : Ref sig .tc := ⟨.hbm, 65, rfl⟩
abbrev main_call1_v4 : Ref sig .tc := ⟨.hbm, 66, rfl⟩
abbrev main_call1_v5 : Ref sig .tc := ⟨.hbm, 67, rfl⟩
abbrev main_call1_cst_2 : Ref sig .tc := ⟨.hbm, 68, rfl⟩
abbrev main_call1_v6 : Ref sig .tc := ⟨.hbm, 69, rfl⟩
abbrev main_call1_v7 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_4 : Ref sig .tc := ⟨.hbm, 74, rfl⟩
abbrev main_v32 : Ref sig .tc := ⟨.hbm, 75, rfl⟩
abbrev main_v33 : Ref sig .tc := ⟨.hbm, 76, rfl⟩
abbrev main_c_5 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_6 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_cst_0 : Ref sig .tc := ⟨.hbm, 92, rfl⟩
abbrev main_call2_v2 : Ref sig .tc := ⟨.hbm, 93, rfl⟩
abbrev main_call2_v3 : Ref sig .tc := ⟨.hbm, 94, rfl⟩
abbrev main_call2_cst_1 : Ref sig .tc := ⟨.hbm, 95, rfl⟩
abbrev main_call2_call0_v0 : Ref sig .tc := ⟨.hbm, 96, rfl⟩
abbrev main_call2_call0_v1 : Ref sig .tc := ⟨.hbm, 97, rfl⟩
abbrev main_call2_v4 : Ref sig .tc := ⟨.hbm, 98, rfl⟩
abbrev main_call2_v5 : Ref sig .tc := ⟨.hbm, 99, rfl⟩
abbrev main_call2_cst_2 : Ref sig .tc := ⟨.hbm, 100, rfl⟩
abbrev main_call2_v6 : Ref sig .tc := ⟨.hbm, 101, rfl⟩
abbrev main_call2_v7 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_7 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_8 : Ref sig .tc := ⟨.hbm, 114, rfl⟩
abbrev main_v54 : Ref sig .tc := ⟨.hbm, 115, rfl⟩
abbrev main_v55 : Ref sig .tc := ⟨.hbm, 116, rfl⟩
abbrev main_cst_9 : Ref sig .tc := ⟨.hbm, 117, rfl⟩
abbrev main_v56 : Ref sig .tc := ⟨.hbm, 118, rfl⟩
abbrev main_v57 : Ref sig .tc := ⟨.hbm, 119, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  bcast_S320000x1_S320000x64_0_1 : S320000x1.BroadcastsInDim S320000x64 (![0, 1] : Fin 2 → Fin S320000x64.rank)
  bcast_S_S10000x64 : S_.BroadcastsInDim S10000x64 (![] : Fin 0 → Fin S10000x64.rank)
  transposes_S64x64_S64x64_1_0 : S64x64.Transposes [1, 0] S64x64
  bcast_S_S64x64 : S_.BroadcastsInDim S64x64 (![] : Fin 0 → Fin S64x64.rank)
  transposes_S10000x64_S64x10000_1_0 : S10000x64.Transposes [1, 0] S64x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x64_S10000x64_1_0_0_1_n_n_wf : DotDims.WF S10000x128 S128x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S64x64_S64x10000_S64x10000_1_0_0_1_n_n_wf : DotDims.WF S64x64 S64x10000 S64x10000 [1] [0] [0] [1] [] []
  dot_S10000x64_S64x10000_S10000x10000_1_0_0_1_n_n_wf : DotDims.WF S10000x64 S64x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S64x64_S64x10000_S64x10000_1_0_0_1_n_n : DotDims S64x64 S64x10000 S64x10000 where
  lhsContracting := [1]
  rhsContracting := [0]
  lhsNonContracting := [0]
  rhsNonContracting := [1]
  lhsBatch := []
  rhsBatch := []
  wf := dot_S64x64_S64x10000_S64x10000_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.KernelRun.lean ====
/-
  The idealized kernel's run with its result array named: every weakly fair execution of the six launches and the
  host operations between them terminates, and the result buffer ends at what the last launch's write-backs leave
  in it — the contents `V10` of the fold through the program: each launch's output array at its blocks' write-backs,
  each stretch of host operations applied to what the launch before it left. The argument arrays end unchanged.
-/
import proofs.«109711_j64295660421451_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program over its ten segments, the last thread state read against the final state: the
    result buffer holds the last boundary's contents, and each argument buffer its launch contents. -/
theorem run_value : θ_run defs (onTc (τ := τ) (main (F := F))) ⟨m, fun _ => 0, ρ⟩ (fun r => ∀ c : Dev nD,
      r.2.mem ((c.tc : Thread nD τ).loc main_v48) = V10 m ρ c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v48 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Run

end
-- ==== Proof.RefTerm.lean ====
/-
  The reference's result as one function of its eight argument arrays, composed of the host operations the
  program applies, grouped by what they compute:
    * `wrapIdx`   — a column index below zero is moved up by the number of nodes (numpy's wrap-around), then
                      the index list becomes a column;
    * `spmm`      — the sparse product  out[i] = Σ_{e : row[e] = i} val[e] · h[col[e]]  as a row gather, a
                      scaling of each gathered row by its edge's value, and an accumulating row scatter into zeros;
    * `elu`       — x if x > 0 else 1 · expm1 (0 if x > 0 else x);
    * `symHalf`   — S = (Wb + Wbᵀ) · ½;
    * `result`    — three layers  h ← elu (spmm (h · W)), then  1 / (1 + exp (−(h · (S · hᵀ)))).
-/
import proofs.«109711_j64295660421451_1_alg».proof.ReferenceIdeal
import proofs.«109711_j64295660421451_1_alg».proof.Proof.Gen.ReferenceIdeal

noncomputable section

namespace Cert.ReferenceIdeal.Term

open Cert.ReferenceIdeal Cert.ReferenceIdeal.Facts₀ Cert.ReferenceIdeal.Facts Idealize.ShloMosaic

variable {F : FTy → Type} [FloatOps F]

/-- The edge column indices, wrapped when negative, as a column. -/
def wrapIdx (col : (⟨S320000, .i32⟩ : BufTy).Contents (Elt F)) : (⟨S320000x1, .i32⟩ : BufTy).Contents (Elt F) :=
  broadcastInDim S320000x1 ![0] bcast_S320000_S320000x1_0
    (select (cmpi .slt col (broadcastInDim S320000 ![] bcast_S_S320000 (constantI S_ 32 0#32)))
      (addi col (broadcastInDim S320000 ![] bcast_S_S320000 (constantI S_ 32 10000#32))) col)

/-- The sparse product on 128 feature columns. -/
def spmm128 (row col : (⟨S320000, .i32⟩ : BufTy).Contents (Elt F)) (val : (⟨S320000, .f32⟩ : BufTy).Contents (Elt F))
    (h : (⟨S10000x128, .f32⟩ : BufTy).Contents (Elt F)) : (⟨S10000x128, .f32⟩ : BufTy).Contents (Elt F) :=
  Host.scatterAdd scatter_S10000x128_S320000x1_S320000x128_1_0_0_1
    (broadcastInDim S10000x128 ![] bcast_S_S10000x128 (constant S_ .f32 0x00000000#32))
    (broadcastInDim S320000x1 ![0] bcast_S320000_S320000x1_0 row)
    (mulf (broadcastInDim S320000x128 ![0, 1] bcast_S320000x1_S320000x128_0_1
            (broadcastInDim S320000x1 ![0] bcast_S320000_S320000x1_0 val))
      (Host.gather gather_S10000x128_S320000x1_S320000x128_1_0_n_n_0_1_1128 h (wrapIdx (F := F) col)))

/-- The sparse product on 64 feature columns. -/
def spmm64 (row col : (⟨S320000, .i32⟩ : BufTy).Contents (Elt F)) (val : (⟨S320000, .f32⟩ : BufTy).Contents (Elt F))
    (h : (⟨S10000x64, .f32⟩ : BufTy).Contents (Elt F)) : (⟨S10000x64, .f32⟩ : BufTy).Contents (Elt F) :=
  Host.scatterAdd scatter_S10000x64_S320000x1_S320000x64_1_0_0_1
    (broadcastInDim S10000x64 ![] bcast_S_S10000x64 (constant S_ .f32 0x00000000#32))
    (broadcastInDim S320000x1 ![0] bcast_S320000_S320000x1_0 row)
    (mulf (broadcastInDim S320000x64 ![0, 1] bcast_S320000x1_S320000x64_0_1
            (broadcastInDim S320000x1 ![0] bcast_S320000_S320000x1_0 val))
      (Host.gather gather_S10000x64_S320000x1_S320000x64_1_0_n_n_0_1_164 h (wrapIdx (F := F) col)))

/-- The reference's exponential linear unit on 128 columns. -/
def elu128 (x : (⟨S10000x128, .f32⟩ : BufTy).Contents (Elt F)) : (⟨S10000x128, .f32⟩ : BufTy).Contents (Elt F) :=
  select (cmpf .ogt x (broadcastInDim S10000x128 ![] bcast_S_S10000x128 (constant S_ .f32 0x00000000#32))) x
    (mulf (broadcastInDim S10000x128 ![] bcast_S_S10000x128 (constant S_ .f32 0x3F800000#32))
      (Host.expm1 (select (cmpf .ogt x (broadcastInDim S10000x128 ![] bcast_S_S10000x128 (constant S_ .f32 0x00000000#32)))
        (broadcastInDim S10000x128 ![] bcast_S_S10000x128 (id (constant S_ .f32 0x00000000#32))) x)))

/-- The reference's exponential linear unit on 64 columns. -/
def elu64 (x : (⟨S10000x64, .f32⟩ : BufTy).Contents (Elt F)) : (⟨S10000x64, .f32⟩ : BufTy).Contents (Elt F) :=
  select (cmpf .ogt x (broadcastInDim S10000x64 ![] bcast_S_S10000x64 (constant S_ .f32 0x00000000#32))) x
    (mulf (broadcastInDim S10000x64 ![] bcast_S_S10000x64 (constant S_ .f32 0x3F800000#32))
      (Host.expm1 (select (cmpf .ogt x (broadcastInDim S10000x64 ![] bcast_S_S10000x64 (constant S_ .f32 0x00000000#32)))
        (broadcastInDim S10000x64 ![] bcast_S_S10000x64 (id (constant S_ .f32 0x00000000#32))) x)))

/-- The symmetrised bilinear weight  (Wb + Wbᵀ) · ½. -/
def symHalf (wb : (⟨S64x64, .f32⟩ : BufTy).Contents (Elt F)) : (⟨S64x64, .f32⟩ : BufTy).Contents (Elt F) :=
  mulf (addf wb (transpose S64x64 [1, 0] wb transposes_S64x64_S64x64_1_0))
    (broadcastInDim S64x64 ![] bcast_S_S64x64 (constant S_ .f32 0x3F000000#32))

/-- The node embedding after the three layers. -/
def embed (x : (⟨S10000x128, .f32⟩ : BufTy).Contents (Elt F)) (row col : (⟨S320000, .i32⟩ : BufTy).Contents (Elt F))
    (val : (⟨S320000, .f32⟩ : BufTy).Contents (Elt F)) (w0 w1 : (⟨S128x128, .f32⟩ : BufTy).Contents (Elt F))
    (w2 : (⟨S128x64, .f32⟩ : BufTy).Contents (Elt F)) : (⟨S10000x64, .f32⟩ : BufTy).Contents (Elt F) :=
  elu64 (spmm64 row col val (Host.dotGeneral dot_S10000x128_S128x64_S10000x64_1_0_0_1_n_n none
    (elu128 (spmm128 row col val (Host.dotGeneral dot_S10000x128_S128x128_S10000x128_1_0_0_1_n_n none
      (elu128 (spmm128 row col val (Host.dotGeneral dot_S10000x128_S128x128_S10000x128_1_0_0_1_n_n none x w0))) w1))) w2))

/-- The logistic of the bilinear form  h · (S · hᵀ), spelt with negate, exponential, add and divide. -/
def bilinear (h : (⟨S10000x64, .f32⟩ : BufTy).Contents (Elt F)) (s : (⟨S64x64, .f32⟩ : BufTy).Contents (Elt F)) :
    (⟨S10000x10000, .f32⟩ : BufTy).Contents (Elt F) :=
  Host.divf (broadcastInDim S10000x10000 ![] bcast_S_S10000x10000 (constant S_ .f32 0x3F800000#32))
    (addf (broadcastInDim S10000x10000 ![] bcast_S_S10000x10000 (constant S_ .f32 0x3F800000#32))
      (Host.exp (Host.negf (Host.dotGeneral dot_S10000x64_S64x10000_S10000x10000_1_0_0_1_n_n none h
        (Host.dotGeneral dot_S64x64_S64x10000_S64x10000_1_0_0_1_n_n none s
          (transpose S64x10000 [1, 0] h transposes_S10000x64_S64x10000_1_0))))))

/-- The reference's result array as a function of its eight argument arrays. -/
def result (x : (⟨S10000x128, .f32⟩ : BufTy).Contents (Elt F)) (row col : (⟨S320000, .i32⟩ : BufTy).Contents (Elt F))
    (val : (⟨S320000, .f32⟩ : BufTy).Contents (Elt F)) (w0 w1 : (⟨S128x128, .f32⟩ : BufTy).Contents (Elt F))
    (w2 : (⟨S128x64, .f32⟩ : BufTy).Contents (Elt F)) (wb : (⟨S64x64, .f32⟩ : BufTy).Contents (Elt F)) :
    (⟨S10000x10000, .f32⟩ : BufTy).Contents (Elt F) :=
  bilinear (embed x row col val w0 w1 w2) (symHalf wb)

end Cert.ReferenceIdeal.Term

end
-- ==== Proof.RefRun.lean ====
/-
  The reference program's run. @main is a straight line of 112 host operations once each call of the exponential
  linear unit (and, inside it, of the two selection functions it calls) is replaced by the callee's operations over that
  call's own buffers. The line is cut into five consecutive stretches:
    * `layer1`, `layer2`, `layer3` — one network layer each: the product with the layer's weight; the edge
      values as a column; the column indices, wrapped where negative, as a column; the gathered rows scaled by the
      edge values; the accumulating row scatter into zeros; the fifteen operations of the exponential linear unit;
    * `tail0`, `tail1` — the symmetrised bilinear weight, the embedding's transpose, the two products, and the
      logistic spelt with negate, exponential, add and divide.
  What a buffer holds after a line is the fold `after` of the operations' results over the launch contents: each
  operation rewrites its result buffer to its function of its operands' contents and leaves every other buffer.
  Each stretch's result buffer read back is the corresponding function of RefTerm (`Term.elu128` of `Term.spmm128`
  of a product, …, `Term.bilinear` with `Term.symHalf`); no stretch writes an argument buffer; and the fold over
  a concatenation is the composition of the folds. So after the whole line the result buffer holds `Term.result`
  of the eight argument arrays, and the arguments hold what they held. `run` states this for every weakly fair
  execution from a memory with zero counters, on every device and for any float values.
-/
import proofs.«109711_j64295660421451_1_alg».proof.Proof.Gen.ReferenceIdeal
import proofs.«109711_j64295660421451_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The first layer, 32 operations: the features times the first weight; the edge values as a column; the column
    indices, moved up by the number of nodes where negative, as a column; the rows gathered at them, each scaled by
    its edge's value; the accumulating scatter of the scaled rows into zeros at the row indices; then the exponential
    linear unit of that sum (two comparisons with zero, the selection of zero where positive, the exponential minus
    one, the product with one, the final selection), over the buffers of its first call. -/
abbrev layer1 : List (HloOp τ sig (Elt F)) :=
  [ binary main_arg0 main_arg4 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v1 (broadcastInDim S320000x1 ![0] bcast_S320000_S320000x1_0 : (⟨S320000, .f32⟩ : BufTy).Contents (Elt F) → (⟨S320000x1, .f32⟩ : BufTy).Contents (Elt F)),
    nullary main_c (constantI S_ 32 0#32),
    unary main_c main_v2 (broadcastInDim S320000 ![] bcast_S_S320000 : (⟨S_, .i32⟩ : BufTy).Contents (Elt F) → (⟨S320000, .i32⟩ : BufTy).Contents (Elt F)),
    binary main_arg2 main_v2 main_v3 (cmpi .slt : (⟨S320000, .i32⟩ : BufTy).Contents (Elt F) → (⟨S320000, .i32⟩ : BufTy).Contents (Elt F) → (⟨S320000, .i1⟩ : BufTy).Contents (Elt F)),
    nullary main_c_0 (constantI S_ 32 10000#32),
    unary main_c_0 main_v4 (broadcastInDim S320000 ![] bcast_S_S320000 : (⟨S_, .i32⟩ : BufTy).Contents (Elt F) → (⟨S320000, .i32⟩ : BufTy).Contents (Elt F)),
    binary main_arg2 main_v4 main_v5 (addi : (⟨S320000, .i32⟩ : BufTy).Contents (Elt F) → (⟨S320000, .i32⟩ : BufTy).Contents (Elt F) → (⟨S320000, .i32⟩ : BufTy).Contents (Elt F)),
    ternary main_v3 main_v5 main_arg2 main_v6 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v6 main_v7 (broadcastInDim S320000x1 ![0] bcast_S320000_S320000x1_0 : (⟨S320000, .i32⟩ : BufTy).Contents (Elt F) → (⟨S320000x1, .i32⟩ : BufTy).Contents (Elt F)),
    binary main_v0 main_v7 main_v8 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    unary main_v1 main_v9 (broadcastInDim S320000x128 ![0, 1] bcast_S320000x1_S320000x128_0_1 : (⟨S320000x1, .f32⟩ : BufTy).Contents (Elt F) → (⟨S320000x128, .f32⟩ : BufTy).Contents (Elt F)),
    binary main_v9 main_v8 main_v10 (mulf : (⟨S320000x128, .f32⟩ : BufTy).Contents (Elt F) → (⟨S320000x128, .f32⟩ : BufTy).Contents (Elt F) → (⟨S320000x128, .f32⟩ : BufTy).Contents (Elt F)),
    nullary main_cst (constant S_ .f32 0x00000000#32),
    unary main_cst main_v11 (broadcastInDim S10000x128 ![] bcast_S_S10000x128 : (⟨S_, .f32⟩ : BufTy).Contents (Elt F) → (⟨S10000x128, .f32⟩ : BufTy).Contents (Elt F)),
    unary main_arg1 main_v12 (broadcastInDim S320000x1 ![0] bcast_S320000_S320000x1_0 : (⟨S320000, .i32⟩ : BufTy).Contents (Elt F) → (⟨S320000x1, .i32⟩ : BufTy).Contents (Elt F)),
    ternary main_v11 main_v12 main_v10 main_v13 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    TRef.nullary main_call0.cst (constant S_ .f32 0x00000000#32),
    TRef.unary main_call0.cst main_call0.v0 (broadcastInDim S10000x128 ![] bcast_S_S10000x128),
    TRef.binary (.of main_v13) main_call0.v0 main_call0.v1 (cmpf .ogt),
    TRef.nullary main_call0.cst_0 (constant S_ .f32 0x00000000#32),
    TRef.unary main_call0.cst_0 main_call0.v2 (broadcastInDim S10000x128 ![] bcast_S_S10000x128),
    TRef.binary (.of main_v13) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S10000x128 ![] bcast_S_S10000x128),
    TRef.ternary main_call0.v3 main_call0.call0.v1 (.of main_v13) main_call0.call0.v2 select,
    TRef.unary main_call0.call0.v2 main_call0.v5 Host.expm1,
    TRef.nullary main_call0.cst_2 (constant S_ .f32 0x3F800000#32),
    TRef.unary main_call0.cst_2 main_call0.v6 (broadcastInDim S10000x128 ![] bcast_S_S10000x128),
    TRef.binary main_call0.v6 main_call0.v5 main_call0.v7 mulf,
    TRef.ternary main_call0.v1 (.of main_v13) main_call0.v7 main_call0.call1.v0 select ]

/-- The second layer, 32 operations: the same line from the first layer's result and the second weight, the
    exponential linear unit over the buffers of its second call. -/
abbrev layer2 : List (HloOp τ sig (Elt F)) :=
  [ binary main_v14 main_arg5 main_v15 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v16 (broadcastInDim S320000x1 ![0] bcast_S320000_S320000x1_0 : (⟨S320000, .f32⟩ : BufTy).Contents (Elt F) → (⟨S320000x1, .f32⟩ : BufTy).Contents (Elt F)),
    nullary main_c_1 (constantI S_ 32 0#32),
    unary main_c_1 main_v17 (broadcastInDim S320000 ![] bcast_S_S320000 : (⟨S_, .i32⟩ : BufTy).Contents (Elt F) → (⟨S320000, .i32⟩ : BufTy).Contents (Elt F)),
    binary main_arg2 main_v17 main_v18 (cmpi .slt : (⟨S320000, .i32⟩ : BufTy).Contents (Elt F) → (⟨S320000, .i32⟩ : BufTy).Contents (Elt F) → (⟨S320000, .i1⟩ : BufTy).Contents (Elt F)),
    nullary main_c_2 (constantI S_ 32 10000#32),
    unary main_c_2 main_v19 (broadcastInDim S320000 ![] bcast_S_S320000 : (⟨S_, .i32⟩ : BufTy).Contents (Elt F) → (⟨S320000, .i32⟩ : BufTy).Contents (Elt F)),
    binary main_arg2 main_v19 main_v20 (addi : (⟨S320000, .i32⟩ : BufTy).Contents (Elt F) → (⟨S320000, .i32⟩ : BufTy).Contents (Elt F) → (⟨S320000, .i32⟩ : BufTy).Contents (Elt F)),
    ternary main_v18 main_v20 main_arg2 main_v21 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v21 main_v22 (broadcastInDim S320000x1 ![0] bcast_S320000_S320000x1_0 : (⟨S320000, .i32⟩ : BufTy).Contents (Elt F) → (⟨S320000x1, .i32⟩ : BufTy).Contents (Elt F)),
    binary main_v15 main_v22 main_v23 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    unary main_v16 main_v24 (broadcastInDim S320000x128 ![0, 1] bcast_S320000x1_S320000x128_0_1 : (⟨S320000x1, .f32⟩ : BufTy).Contents (Elt F) → (⟨S320000x128, .f32⟩ : BufTy).Contents (Elt F)),
    binary main_v24 main_v23 main_v25 (mulf : (⟨S320000x128, .f32⟩ : BufTy).Contents (Elt F) → (⟨S320000x128, .f32⟩ : BufTy).Contents (Elt F) → (⟨S320000x128, .f32⟩ : BufTy).Contents (Elt F)),
    nullary main_cst_3 (constant S_ .f32 0x00000000#32),
    unary main_cst_3 main_v26 (broadcastInDim S10000x128 ![] bcast_S_S10000x128 : (⟨S_, .f32⟩ : BufTy).Contents (Elt F) → (⟨S10000x128, .f32⟩ : BufTy).Contents (Elt F)),
    unary main_arg1 main_v27 (broadcastInDim S320000x1 ![0] bcast_S320000_S320000x1_0 : (⟨S320000, .i32⟩ : BufTy).Contents (Elt F) → (⟨S320000x1, .i32⟩ : BufTy).Contents (Elt F)),
    ternary main_v26 main_v27 main_v25 main_v28 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    TRef.nullary main_call1.cst (constant S_ .f32 0x00000000#32),
    TRef.unary main_call1.cst main_call1.v0 (broadcastInDim S10000x128 ![] bcast_S_S10000x128),
    TRef.binary (.of main_v28) main_call1.v0 main_call1.v1 (cmpf .ogt),
    TRef.nullary main_call1.cst_0 (constant S_ .f32 0x00000000#32),
    TRef.unary main_call1.cst_0 main_call1.v2 (broadcastInDim S10000x128 ![] bcast_S_S10000x128),
    TRef.binary (.of main_v28) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S10000x128 ![] bcast_S_S10000x128),
    TRef.ternary main_call1.v3 main_call1.call0.v1 (.of main_v28) main_call1.call0.v2 select,
    TRef.unary main_call1.call0.v2 main_call1.v5 Host.expm1,
    TRef.nullary main_call1.cst_2 (constant S_ .f32 0x3F800000#32),
    TRef.unary main_call1.cst_2 main_call1.v6 (broadcastInDim S10000x128 ![] bcast_S_S10000x128),
    TRef.binary main_call1.v6 main_call1.v5 main_call1.v7 mulf,
    TRef.ternary main_call1.v1 (.of main_v28) main_call1.v7 main_call1.call1.v0 select ]

/-- The third layer, 32 operations: the same line on 64 feature columns, from the second layer's result and the
    third weight, the 64-column exponential linear unit over the buffers of its call. -/
abbrev layer3 : List (HloOp τ sig (Elt F)) :=
  [ binary main_v29 main_arg6 main_v30 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    unary main_arg3 main_v31 (broadcastInDim S320000x1 ![0] bcast_S320000_S320000x1_0 : (⟨S320000, .f32⟩ : BufTy).Contents (Elt F) → (⟨S320000x1, .f32⟩ : BufTy).Contents (Elt F)),
    nullary main_c_4 (constantI S_ 32 0#32),
    unary main_c_4 main_v32 (broadcastInDim S320000 ![] bcast_S_S320000 : (⟨S_, .i32⟩ : BufTy).Contents (Elt F) → (⟨S320000, .i32⟩ : BufTy).Contents (Elt F)),
    binary main_arg2 main_v32 main_v33 (cmpi .slt : (⟨S320000, .i32⟩ : BufTy).Contents (Elt F) → (⟨S320000, .i32⟩ : BufTy).Contents (Elt F) → (⟨S320000, .i1⟩ : BufTy).Contents (Elt F)),
    nullary main_c_5 (constantI S_ 32 10000#32),
    unary main_c_5 main_v34 (broadcastInDim S320000 ![] bcast_S_S320000 : (⟨S_, .i32⟩ : BufTy).Contents (Elt F) → (⟨S320000, .i32⟩ : BufTy).Contents (Elt F)),
    binary main_arg2 main_v34 main_v35 (addi : (⟨S320000, .i32⟩ : BufTy).Contents (Elt F) → (⟨S320000, .i32⟩ : BufTy).Contents (Elt F) → (⟨S320000, .i32⟩ : BufTy).Contents (Elt F)),
    ternary main_v33 main_v35 main_arg2 main_v36 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v36 main_v37 (broadcastInDim S320000x1 ![0] bcast_S320000_S320000x1_0 : (⟨S320000, .i32⟩ : BufTy).Contents (Elt F) → (⟨S320000x1, .i32⟩ : BufTy).Contents (Elt F)),
    binary main_v30 main_v37 main_v38 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    unary main_v31 main_v39 (broadcastInDim S320000x64 ![0, 1] bcast_S320000x1_S320000x64_0_1 : (⟨S320000x1, .f32⟩ : BufTy).Contents (Elt F) → (⟨S320000x64, .f32⟩ : BufTy).Contents (Elt F)),
    binary main_v39 main_v38 main_v40 (mulf : (⟨S320000x64, .f32⟩ : BufTy).Contents (Elt F) → (⟨S320000x64, .f32⟩ : BufTy).Contents (Elt F) → (⟨S320000x64, .f32⟩ : BufTy).Contents (Elt F)),
    nullary main_cst_6 (constant S_ .f32 0x00000000#32),
    unary main_cst_6 main_v41 (broadcastInDim S10000x64 ![] bcast_S_S10000x64 : (⟨S_, .f32⟩ : BufTy).Contents (Elt F) → (⟨S10000x64, .f32⟩ : BufTy).Contents (Elt F)),
    unary main_arg1 main_v42 (broadcastInDim S320000x1 ![0] bcast_S320000_S320000x1_0 : (⟨S320000, .i32⟩ : BufTy).Contents (Elt F) → (⟨S320000x1, .i32⟩ : BufTy).Contents (Elt F)),
    ternary main_v41 main_v42 main_v40 main_v43 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    TRef.nullary main_call2.cst (constant S_ .f32 0x00000000#32),
    TRef.unary main_call2.cst main_call2.v0 (broadcastInDim S10000x64 ![] bcast_S_S10000x64),
    TRef.binary (.of main_v43) main_call2.v0 main_call2.v1 (cmpf .ogt),
    TRef.nullary main_call2.cst_0 (constant S_ .f32 0x00000000#32),
    TRef.unary main_call2.cst_0 main_call2.v2 (broadcastInDim S10000x64 ![] bcast_S_S10000x64),
    TRef.binary (.of main_v43) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S10000x64 ![] bcast_S_S10000x64),
    TRef.ternary main_call2.v3 main_call2.call0.v1 (.of main_v43) main_call2.call0.v2 select,
    TRef.unary main_call2.call0.v2 main_call2.v5 Host.expm1,
    TRef.nullary main_call2.cst_2 (constant S_ .f32 0x3F800000#32),
    TRef.unary main_call2.cst_2 main_call2.v6 (broadcastInDim S10000x64 ![] bcast_S_S10000x64),
    TRef.binary main_call2.v6 main_call2.v5 main_call2.v7 mulf,
    TRef.ternary main_call2.v1 (.of main_v43) main_call2.v7 main_call2.call1.v0 select ]

/-- The bilinear weight's symmetrisation (its transpose, the sum, the product with one half) and the embedding's
    transpose: 6 operations. -/
abbrev tail0 : List (HloOp τ sig (Elt F)) :=
  [ unary main_arg7 main_v45 ((transpose S64x64 [1, 0] · transposes_S64x64_S64x64_1_0) : (⟨S64x64, .f32⟩ : BufTy).Contents (Elt F) → (⟨S64x64, .f32⟩ : BufTy).Contents (Elt F)),
    binary main_arg7 main_v45 main_v46 (addf : (⟨S64x64, .f32⟩ : BufTy).Contents (Elt F) → (⟨S64x64, .f32⟩ : BufTy).Contents (Elt F) → (⟨S64x64, .f32⟩ : BufTy).Contents (Elt F)),
    nullary main_cst_7 (constant S_ .f32 0x3F000000#32),
    unary main_cst_7 main_v47 (broadcastInDim S64x64 ![] bcast_S_S64x64 : (⟨S_, .f32⟩ : BufTy).Contents (Elt F) → (⟨S64x64, .f32⟩ : BufTy).Contents (Elt F)),
    binary main_v46 main_v47 main_v48 (mulf : (⟨S64x64, .f32⟩ : BufTy).Contents (Elt F) → (⟨S64x64, .f32⟩ : BufTy).Contents (Elt F) → (⟨S64x64, .f32⟩ : BufTy).Contents (Elt F)),
    unary main_v44 main_v49 ((transpose S64x10000 [1, 0] · transposes_S10000x64_S64x10000_1_0) : (⟨S10000x64, .f32⟩ : BufTy).Contents (Elt F) → (⟨S64x10000, .f32⟩ : BufTy).Contents (Elt F)) ]

/-- The symmetrised weight times the transposed embedding, the embedding times that, and the logistic of the
    product spelt with negate, exponential, add and divide: 10 operations. -/
abbrev tail1 : List (HloOp τ sig (Elt F)) :=
  [ binary main_v48 main_v49 main_v50 ((fun l r => Host.dotGeneral dot_S64x64_S64x10000_S64x10000_1_0_0_1_n_n none l r) : (⟨S64x64, .f32⟩ : BufTy).Contents (Elt F) → (⟨S64x10000, .f32⟩ : BufTy).Contents (Elt F) → (⟨S64x10000, .f32⟩ : BufTy).Contents (Elt F)),
    binary main_v44 main_v50 main_v51 ((fun l r => Host.dotGeneral dot_S10000x64_S64x10000_S10000x10000_1_0_0_1_n_n none l r) : (⟨S10000x64, .f32⟩ : BufTy).Contents (Elt F) → (⟨S64x10000, .f32⟩ : BufTy).Contents (Elt F) → (⟨S10000x10000, .f32⟩ : BufTy).Contents (Elt F)),
    unary main_v51 main_v52 (Host.negf : (⟨S10000x10000, .f32⟩ : BufTy).Contents (Elt F) → (⟨S10000x10000, .f32⟩ : BufTy).Contents (Elt F)),
    unary main_v52 main_v53 (Host.exp : (⟨S10000x10000, .f32⟩ : BufTy).Contents (Elt F) → (⟨S10000x10000, .f32⟩ : BufTy).Contents (Elt F)),
    nullary main_cst_8 (constant S_ .f32 0x3F800000#32),
    unary main_cst_8 main_v54 (broadcastInDim S10000x10000 ![] bcast_S_S10000x10000 : (⟨S_, .f32⟩ : BufTy).Contents (Elt F) → (⟨S10000x10000, .f32⟩ : BufTy).Contents (Elt F)),
    binary main_v54 main_v53 main_v55 (addf : (⟨S10000x10000, .f32⟩ : BufTy).Contents (Elt F) → (⟨S10000x10000, .f32⟩ : BufTy).Contents (Elt F) → (⟨S10000x10000, .f32⟩ : BufTy).Contents (Elt F)),
    nullary main_cst_9 (constant S_ .f32 0x3F800000#32),
    unary main_cst_9 main_v56 (broadcastInDim S10000x10000 ![] bcast_S_S10000x10000 : (⟨S_, .f32⟩ : BufTy).Contents (Elt F) → (⟨S10000x10000, .f32⟩ : BufTy).Contents (Elt F)),
    binary main_v56 main_v55 main_v57 (Host.divf : (⟨S10000x10000, .f32⟩ : BufTy).Contents (Elt F) → (⟨S10000x10000, .f32⟩ : BufTy).Contents (Elt F) → (⟨S10000x10000, .f32⟩ : BufTy).Contents (Elt F)) ]

/-- @main's 112 operations in order, every call replaced by its callee's operations over the call's buffers. -/
abbrev ops : List (HloOp τ sig (Elt F)) := layer1 ++ layer2 ++ layer3 ++ tail0 ++ tail1

/-! ## The program is that line -/

set_option maxRecDepth 8192 in
set_option maxHeartbeats 4000000 in
/-- The first sixty statements are the first four stretches: the three functions' definitions unfolded at their
    calls, both sides are one chain of steps once sequencing is reassociated. -/
theorem part0_eq (c : Dev nD) : main_part0 (F := F) c = seq (layer1 ++ layer2 ++ layer3 ++ tail0) := by
  simp only [main_part0, fn_elu.body, fn_elu_1.body, fn_where.body, fn_where_0.body, fn_where_2.body, fn_where_3.body,
    List.cons_append, List.nil_append, seq, bind_assoc, pure_bind]
  rfl

set_option maxRecDepth 4096 in
/-- The last ten statements are the last stretch. -/
theorem part1_eq (c : Dev nD) : main_part1 (F := F) c = seq tail1 := by
  simp only [main_part1, seq, bind_assoc, pure_bind]

/-- @main is the whole line: a line after a line is their concatenation run as one. -/
theorem main_eq (c : Dev nD) : main (F := F) c = seq ops := by
  show _ = seq ((layer1 ++ layer2 ++ layer3 ++ tail0) ++ tail1)
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ### Every operation touches TensorCore buffers only, and determines its results -/

theorem layer1_sub : (layer1 : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem layer2_sub : (layer2 : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem layer3_sub : (layer3 : List (HloOp τ sig (Elt F))).Forall fun op => op.bufs ⊆ tcRefs τ sig :=
  ⟨binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub ..⟩

theorem tail0_sub : (tail0 : List (HloOp τ sig (Elt F))).Forall fun op => op.bufs ⊆ tcRefs τ sig :=
  ⟨unary_bufs_sub .., binary_bufs_sub .., nullary_bufs_sub .., unary_bufs_sub .., binary_bufs_sub .., unary_bufs_sub ..⟩

theorem tail1_sub : (tail1 : List (HloOp τ sig (Elt F))).Forall fun op => op.bufs ⊆ tcRefs τ sig :=
  ⟨binary_bufs_sub .., binary_bufs_sub .., unary_bufs_sub .., unary_bufs_sub .., nullary_bufs_sub .., unary_bufs_sub ..,
    binary_bufs_sub .., nullary_bufs_sub .., unary_bufs_sub .., binary_bufs_sub ..⟩

theorem ops_sub : (ops : List (HloOp τ sig (Elt F))).Forall fun op => op.bufs ⊆ tcRefs τ sig := by
  rw [List.forall_iff_forall_mem]
  intro op h
  simp only [List.mem_append] at h
  rcases h with (((h | h) | h) | h) | h
  exacts [List.forall_iff_forall_mem.1 layer1_sub op h, List.forall_iff_forall_mem.1 layer2_sub op h,
    List.forall_iff_forall_mem.1 layer3_sub op h, List.forall_iff_forall_mem.1 tail0_sub op h,
    List.forall_iff_forall_mem.1 tail1_sub op h]

theorem layer1_fresh : ∀ op ∈ (layer1 : List (HloOp τ sig (Elt F))), op.fresh = ∅ := by
  intro _ h; (repeat (cases h with | head => rfl | tail _ h => ?_)); exact nomatch h

theorem layer2_fresh : ∀ op ∈ (layer2 : List (HloOp τ sig (Elt F))), op.fresh = ∅ := by
  intro _ h; (repeat (cases h with | head => rfl | tail _ h => ?_)); exact nomatch h

theorem layer3_fresh : ∀ op ∈ (layer3 : List (HloOp τ sig (Elt F))), op.fresh = ∅ := by
  intro _ h; (repeat (cases h with | head => rfl | tail _ h => ?_)); exact nomatch h

theorem tail0_fresh : ∀ op ∈ (tail0 : List (HloOp τ sig (Elt F))), op.fresh = ∅ := by
  intro _ h; (repeat (cases h with | head => rfl | tail _ h => ?_)); exact nomatch h

theorem tail1_fresh : ∀ op ∈ (tail1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [List.mem_append] at h
  rcases h with (((h | h) | h) | h) | h
  exacts [layer1_fresh op h, layer2_fresh op h, layer3_fresh op h, tail0_fresh op h, tail1_fresh op h]

/-! ## What the buffers hold after the line -/

/-- The fold over two lines in a row is the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A line keeps the eight argument buffers: after it each holds what it held before. -/
def Keeps (l : List (HloOp τ sig (Elt F))) : Prop := ∀ V : Valuation τ sig (Elt F),
  after l V (main_arg0 : DevRef τ sig) = V (main_arg0 : DevRef τ sig)
  ∧ after l V (main_arg1 : DevRef τ sig) = V (main_arg1 : DevRef τ sig)
  ∧ after l V (main_arg2 : DevRef τ sig) = V (main_arg2 : DevRef τ sig)
  ∧ after l V (main_arg3 : DevRef τ sig) = V (main_arg3 : DevRef τ sig)
  ∧ after l V (main_arg4 : DevRef τ sig) = V (main_arg4 : DevRef τ sig)
  ∧ after l V (main_arg5 : DevRef τ sig) = V (main_arg5 : DevRef τ sig)
  ∧ after l V (main_arg6 : DevRef τ sig) = V (main_arg6 : DevRef τ sig)
  ∧ after l V (main_arg7 : DevRef τ sig) = V (main_arg7 : DevRef τ sig)

/-- Two lines that each keep the arguments keep them run in a row. -/
theorem Keeps.append {l₁ l₂ : List (HloOp τ sig (Elt F))} (h₁ : Keeps l₁) (h₂ : Keeps l₂) : Keeps (l₁ ++ l₂) := fun V => by
  obtain ⟨a0, a1, a2, a3, a4, a5, a6, a7⟩ := h₁ V
  obtain ⟨b0, b1, b2, b3, b4, b5, b6, b7⟩ := h₂ (after l₁ V)
  rw [after_app]
  exact ⟨b0.trans a0, b1.trans a1, b2.trans a2, b3.trans a3, b4.trans a4, b5.trans a5, b6.trans a6, b7.trans a7⟩

/-- No operation of a stretch writes an argument buffer: each result buffer is another reference. -/
theorem layer1_keeps : Keeps (layer1 : List (HloOp τ sig (Elt F))) := fun V => by
  refine ⟨?_, ?_, ?_, ?_, ?_, ?_, ?_, ?_⟩ <;> after_results_simp

theorem layer2_keeps : Keeps (layer2 : List (HloOp τ sig (Elt F))) := fun V => by
  refine ⟨?_, ?_, ?_, ?_, ?_, ?_, ?_, ?_⟩ <;> after_results_simp

theorem layer3_keeps : Keeps (layer3 : List (HloOp τ sig (Elt F))) := fun V => by
  refine ⟨?_, ?_, ?_, ?_, ?_, ?_, ?_, ?_⟩ <;> after_results_simp

theorem tail0_keeps : Keeps (tail0 : List (HloOp τ sig (Elt F))) := fun V => by
  refine ⟨?_, ?_, ?_, ?_, ?_, ?_, ?_, ?_⟩ <;> after_results_simp

theorem tail1_keeps : Keeps (tail1 : List (HloOp τ sig (Elt F))) := fun V => by
  refine ⟨?_, ?_, ?_, ?_, ?_, ?_, ?_, ?_⟩ <;> after_results_simp

theorem ops_keeps : Keeps (ops : List (HloOp τ sig (Elt F))) :=
  (((layer1_keeps.append layer2_keeps).append layer3_keeps).append tail0_keeps).append tail1_keeps

attribute [local irreducible] Host.gather Host.scatterAdd Host.expm1 in
/-- After the first layer its result buffer holds the exponential linear unit of the sparse product of the features
    times the first weight: each operation's result at its own buffer is its function of its operands' contents,
    at any other buffer what was there, and the typed references' transports are the identity at these references. -/
theorem layer1_out (V : Valuation τ sig (Elt F)) :
    after layer1 V (main_v14 : DevRef τ sig)
      = Term.elu128 (Term.spmm128 (V (main_arg1 : DevRef τ sig)) (V (main_arg2 : DevRef τ sig)) (V (main_arg3 : DevRef τ sig))
          (Host.dotGeneral dot_S10000x128_S128x128_S10000x128_1_0_0_1_n_n none (V (main_arg0 : DevRef τ sig)) (V (main_arg4 : DevRef τ sig)))) := by
  after_results_simp
  rfl

attribute [local irreducible] Host.gather Host.scatterAdd Host.expm1 in
/-- The same for the second layer, from the first layer's result buffer and the second weight. -/
theorem layer2_out (V : Valuation τ sig (Elt F)) :
    after layer2 V (main_v29 : DevRef τ sig)
      = Term.elu128 (Term.spmm128 (V (main_arg1 : DevRef τ sig)) (V (main_arg2 : DevRef τ sig)) (V (main_arg3 : DevRef τ sig))
          (Host.dotGeneral dot_S10000x128_S128x128_S10000x128_1_0_0_1_n_n none (V (main_v14 : DevRef τ sig)) (V (main_arg5 : DevRef τ sig)))) := by
  after_results_simp
  rfl

attribute [local irreducible] Host.gather Host.scatterAdd Host.expm1 in
/-- The same for the third layer on 64 columns, from the second layer's result buffer and the third weight. -/
theorem layer3_out (V : Valuation τ sig (Elt F)) :
    after layer3 V (main_v44 : DevRef τ sig)
      = Term.elu64 (Term.spmm64 (V (main_arg1 : DevRef τ sig)) (V (main_arg2 : DevRef τ sig)) (V (main_arg3 : DevRef τ sig))
          (Host.dotGeneral dot_S10000x128_S128x64_S10000x64_1_0_0_1_n_n none (V (main_v29 : DevRef τ sig)) (V (main_arg6 : DevRef τ sig)))) := by
  after_results_simp
  rfl

attribute [local irreducible] Host.exp Host.negf Host.divf in
/-- After the last two stretches the result buffer holds the logistic of the bilinear form of the embedding (the
    third layer's result buffer) with the symmetrised weight. -/
theorem tail_out (V : Valuation τ sig (Elt F)) :
    after tail1 (after tail0 V) (main_v57 : DevRef τ sig)
      = Term.bilinear (V (main_v44 : DevRef τ sig)) (Term.symHalf (V (main_arg7 : DevRef τ sig))) := by
  after_results_simp
  rfl

/-- After the whole line the result buffer holds the reference's result term of the eight argument arrays: the
    fold over the concatenation is the composition of the five folds, each stretch's result is read at the
    contents the stretches before it leave, and those leave the arguments as they were. -/
theorem ops_out (V : Valuation τ sig (Elt F)) :
    after ops V (main_v57 : DevRef τ sig)
      = Term.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  obtain ⟨-, a1, a2, a3, -, a5, a6, a7⟩ := layer1_keeps V
  obtain ⟨-, b1, b2, b3, -, -, b6, b7⟩ := layer2_keeps (after layer1 V)
  obtain ⟨-, -, -, -, -, -, -, c7⟩ := layer3_keeps (after layer2 (after layer1 V))
  show after (layer1 ++ layer2 ++ layer3 ++ tail0 ++ tail1) V _ = _
  rw [after_app, after_app, after_app, after_app, tail_out, layer3_out, layer2_out, layer1_out,
    c7, b1, b2, b3, b6, b7, a1, a2, a3, a5, a6, a7]
  rfl

/-! ## The run -/

/-- On every device, for any float values, from any memory with zero counters: every weakly fair execution of
    @main terminates with the result buffer at the reference's result term of the arguments' launch contents and
    the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = Term.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨a0, a1, a2, a3, a4, a5, a6, a7⟩ := ops_keeps (F := F) (launchContents m c)
      exact ⟨(h c main_v57).trans (ops_out _), (h c main_arg0).trans a0, (h c main_arg1).trans a1,
        (h c main_arg2).trans a2, (h c main_arg3).trans a3, (h c main_arg4).trans a4, (h c main_arg5).trans a5,
        (h c main_arg6).trans a6, (h c main_arg7).trans a7⟩)
    (run_seq scopedRefs_eq scopedSems_eq defs main (fun _ => ops) main_eq (fun _ => ops_sub) m ρ (fun _ => ops_fresh))

end Cert.ReferenceIdeal.RefRun

end
-- ==== Proof.KernelWhole.lean ====
/-
  The five launches of one grid point: each output array after the launch is the body's value — one pure function of
  the loaded blocks — applied to the launch's whole input arrays. A launch with a single grid point whose every window's
  block is the whole array at block index (0, 0) reads each input array entire, and its one write-back covers the
  output array; so the array the launch leaves is the body's value of the arrays it found.
-/
import proofs.«109711_j64295660421451_1_alg».proof.Proof.Gen.KernelIdeal.Frame
import Idealize.ShloMosaic.Lib.Pipeline.Value

set_option maxRecDepth 16384

noncomputable section

namespace Cert.KernelIdeal.Value6

open Cert.KernelIdeal Cert.KernelIdeal.Gen
open Idealize.ShloMosaic Idealize.ShloMosaic.TcCoe Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-! ## Launch 0: one grid point, every window's block its whole array -/

/-- Every window of launch 0 sits at block (0, 0). -/
theorem idx0 : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 :=
  (by decide +kernel : ∀ t : Fin grid0.N, _)

/-- Input window 0's block is its whole array. -/
theorem iblk0_0 (c : Dev nD) (t : Fin cfg0.N) : iblk0 V c 0 t = V c main_arg0 := by
  funext y
  show V c main_arg0 (((cfg0.win 0).blk t).view.emb y) = V c main_arg0 y
  refine congrArg _ (funext fun a => Fin.ext ?_)
  have e0 : win0_0.index t (0 : Fin 2) = 0 := (idx0 t).1
  have e1 : win0_0.index t (1 : Fin 2) = 0 := (idx0 t).2.1
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- Input window 1's block is its whole array. -/
theorem iblk0_1 (c : Dev nD) (t : Fin cfg0.N) : iblk0 V c 1 t = V c main_arg4 := by
  funext y
  show V c main_arg4 (((cfg0.win 1).blk t).view.emb y) = V c main_arg4 y
  refine congrArg _ (funext fun a => Fin.ext ?_)
  have e0 : win0_1.index t (0 : Fin 2) = 0 := (idx0 t).2.2.1
  have e1 : win0_1.index t (1 : Fin 2) = 0 := (idx0 t).2.2.2.1
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is the body's value of the whole input arrays. -/
theorem flushed0 (c : Dev nD) (t : Fin cfg0.N) :
    (dat0 V c).flushed 2 t = ((cfg0.win 2).blk t).view.read (Elt F) (k0_pay1 (V c main_arg0) (V c main_arg4)) := by
  show (cfg0.win 2).cut (grid0.coords t) ((dat0 V c).after 2 t) = _
  rw [after0_2, iblk0_0, iblk0_1]
  unfold out0_2
  rw [View.canon_unit_zero hz]
  simp only [View.ld_unit_zero (S := S10000x128) hz, View.ld_unit_zero (S := S128x128) hz]
  funext y
  show k0_pay1 (V c main_arg0) (V c main_arg4) y = k0_pay1 (V c main_arg0) (V c main_arg4) (((cfg0.win 2).blk t).view.emb y)
  refine congrArg _ (funext fun a => Fin.ext ?_)
  have e0 : win0_2.index t (0 : Fin 2) = 0 := (idx0 t).2.2.2.2.1
  have e1 : win0_2.index t (1 : Fin 2) = 0 := (idx0 t).2.2.2.2.2
  match a with
  | ⟨0, _⟩ => show (y 0).val = win0_2.index t (0 : Fin 2) * 10000 + 1 * (y 0).val; omega
  | ⟨1, _⟩ => show (y 1).val = win0_2.index t (1 : Fin 2) * 128 + 1 * (y 1).val; omega

/-- An index is in the point's block iff each coordinate is in the block's range. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- THE OUTPUT ARRAY of launch 0: the body's value of the whole input arrays as the launch finds them. -/
theorem final0 (c : Dev nD) : (dat0 V c).arrAt 2 cfg0.N = k0_pay1 (V c main_arg0) (V c main_arg4) :=
  (dat0 V c).arrAt_eq_of_cover 2 (k0_pay1 (V c main_arg0) (V c main_arg4)) (fun t _ => flushed0 V c t) fun i => by
    refine ⟨t0_0, flush0_2 _, ?_⟩
    rw [mem_blk0]
    have e0 : win0_2.index t0_0 (0 : Fin 2) = 0 := (idx0 t0_0).2.2.2.2.1
    have e1 : win0_2.index t0_0 (1 : Fin 2) = 0 := (idx0 t0_0).2.2.2.2.2
    intro a
    match a with
    | ⟨0, _⟩ => show win0_2.index t0_0 (0 : Fin 2) * 10000 ≤ (i 0).val ∧ (i 0).val < win0_2.index t0_0 (0 : Fin 2) * 10000 + 10000; have hlt : (i 0).val < 10000 := (i 0).isLt; omega
    | ⟨1, _⟩ => show win0_2.index t0_0 (1 : Fin 2) * 128 ≤ (i 1).val ∧ (i 1).val < win0_2.index t0_0 (1 : Fin 2) * 128 + 128; have hlt : (i 1).val < 128 := (i 1).isLt; omega

/-! ## Launch 1: one grid point, every window's block its whole array -/

/-- Every window of launch 1 sits at block (0, 0). -/
theorem idx1 : ∀ t : Fin cfg1.N, win1_0.index t (0 : Fin 2) = 0 ∧ win1_0.index t (1 : Fin 2) = 0 ∧ win1_1.index t (0 : Fin 2) = 0 ∧ win1_1.index t (1 : Fin 2) = 0 ∧ win1_2.index t (0 : Fin 2) = 0 ∧ win1_2.index t (1 : Fin 2) = 0 :=
  (by decide +kernel : ∀ t : Fin grid1.N, _)

/-- Input window 0's block is its whole array. -/
theorem iblk1_0 (c : Dev nD) (t : Fin cfg1.N) : iblk1 V c 0 t = V c main_v13 := by
  funext y
  show V c main_v13 (((cfg1.win 0).blk t).view.emb y) = V c main_v13 y
  refine congrArg _ (funext fun a => Fin.ext ?_)
  have e0 : win1_0.index t (0 : Fin 2) = 0 := (idx1 t).1
  have e1 : win1_0.index t (1 : Fin 2) = 0 := (idx1 t).2.1
  match a with
  | ⟨0, _⟩ => show win1_0.index t (0 : Fin 2) * 10000 + 1 * (y 0).val = (y 0).val; omega
  | ⟨1, _⟩ => show win1_0.index t (1 : Fin 2) * 128 + 1 * (y 1).val = (y 1).val; omega

/-- Input window 1's block is its whole array. -/
theorem iblk1_1 (c : Dev nD) (t : Fin cfg1.N) : iblk1 V c 1 t = V c main_arg5 := by
  funext y
  show V c main_arg5 (((cfg1.win 1).blk t).view.emb y) = V c main_arg5 y
  refine congrArg _ (funext fun a => Fin.ext ?_)
  have e0 : win1_1.index t (0 : Fin 2) = 0 := (idx1 t).2.2.1
  have e1 : win1_1.index t (1 : Fin 2) = 0 := (idx1 t).2.2.2.1
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- What the one point writes back is the body's value of the whole input arrays. -/
theorem flushed1 (c : Dev nD) (t : Fin cfg1.N) :
    (dat1 V c).flushed 2 t = ((cfg1.win 2).blk t).view.read (Elt F) (k1_pay1 (V c main_v13) (V c main_arg5)) := by
  show (cfg1.win 2).cut (grid1.coords t) ((dat1 V c).after 2 t) = _
  rw [after1_2, iblk1_0, iblk1_1]
  unfold out1_2
  rw [View.canon_unit_zero hz]
  simp only [View.ld_unit_zero (S := S10000x128) hz, View.ld_unit_zero (S := S128x128) hz]
  funext y
  show k1_pay1 (V c main_v13) (V c main_arg5) y = k1_pay1 (V c main_v13) (V c main_arg5) (((cfg1.win 2).blk t).view.emb y)
  refine congrArg _ (funext fun a => Fin.ext ?_)
  have e0 : win1_2.index t (0 : Fin 2) = 0 := (idx1 t).2.2.2.2.1
  have e1 : win1_2.index t (1 : Fin 2) = 0 := (idx1 t).2.2.2.2.2
  match a with
  | ⟨0, _⟩ => show (y 0).val = win1_2.index t (0 : Fin 2) * 10000 + 1 * (y 0).val; omega
  | ⟨1, _⟩ => show (y 1).val = win1_2.index t (1 : Fin 2) * 128 + 1 * (y 1).val; omega

/-- An index is in the point's block iff each coordinate is in the block's range. -/
theorem mem_blk1 (t : Fin cfg1.N) (i : S10000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v14).slice (win1_2.rect t)).set ↔ _
  rw [View.set_slice_whole, Rect.mem_set_unit]
  exact Iff.rfl

/-- THE OUTPUT ARRAY of launch 1: the body's value of the whole input arrays as the launch finds them. -/
theorem final1 (c : Dev nD) : (dat1 V c).arrAt 2 cfg1.N = k1_pay1 (V c main_v13) (V c main_arg5) :=
  (dat1 V c).arrAt_eq_of_cover 2 (k1_pay1 (V c main_v13) (V c main_arg5)) (fun t _ => flushed1 V c t) fun i => by
    refine ⟨t1_0, flush1_2 _, ?_⟩
    rw [mem_blk1]
    have e0 : win1_2.index t1_0 (0 : Fin 2) = 0 := (idx1 t1_0).2.2.2.2.1
    have e1 : win1_2.index t1_0 (1 : Fin 2) = 0 := (idx1 t1_0).2.2.2.2.2
    intro a
    match a with
    | ⟨0, _⟩ => show win1_2.index t1_0 (0 : Fin 2) * 10000 ≤ (i 0).val ∧ (i 0).val < win1_2.index t1_0 (0 : Fin 2) * 10000 + 10000; have hlt : (i 0).val < 10000 := (i 0).isLt; omega
    | ⟨1, _⟩ => show win1_2.index t1_0 (1 : Fin 2) * 128 ≤ (i 1).val ∧ (i 1).val < win1_2.index t1_0 (1 : Fin 2) * 128 + 128; have hlt : (i 1).val < 128 := (i 1).isLt; omega

/-! ## Launch 2: one grid point, every window's block its whole array -/

/-- Every window of launch 2 sits at block (0, 0). -/
theorem idx2 : ∀ t : Fin cfg2.N, win2_0.index t (0 : Fin 2) = 0 ∧ win2_0.index t (1 : Fin 2) = 0 ∧ win2_1.index t (0 : Fin 2) = 0 ∧ win2_1.index t (1 : Fin 2) = 0 ∧ win2_2.index t (0 : Fin 2) = 0 ∧ win2_2.index t (1 : Fin 2) = 0 :=
  (by decide +kernel : ∀ t : Fin grid2.N, _)

/-- Input window 0's block is its whole array. -/
theorem iblk2_0 (c : Dev nD) (t : Fin cfg2.N) : iblk2 V c 0 t = V c main_v27 := by
  funext y
  show V c main_v27 (((cfg2.win 0).blk t).view.emb y) = V c main_v27 y
  refine congrArg _ (funext fun a => Fin.ext ?_)
  have e0 : win2_0.index t (0 : Fin 2) = 0 := (idx2 t).1
  have e1 : win2_0.index t (1 : Fin 2) = 0 := (idx2 t).2.1
  match a with
  | ⟨0, _⟩ => show win2_0.index t (0 : Fin 2) * 10000 + 1 * (y 0).val = (y 0).val; omega
  | ⟨1, _⟩ => show win2_0.index t (1 : Fin 2) * 128 + 1 * (y 1).val = (y 1).val; omega

/-- Input window 1's block is its whole array. -/
theorem iblk2_1 (c : Dev nD) (t : Fin cfg2.N) : iblk2 V c 1 t = V c main_arg6 := by
  funext y
  show V c main_arg6 (((cfg2.win 1).blk t).view.emb y) = V c main_arg6 y
  refine congrArg _ (funext fun a => Fin.ext ?_)
  have e0 : win2_1.index t (0 : Fin 2) = 0 := (idx2 t).2.2.1
  have e1 : win2_1.index t (1 : Fin 2) = 0 := (idx2 t).2.2.2.1
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- What the one point writes back is the body's value of the whole input arrays. -/
theorem flushed2 (c : Dev nD) (t : Fin cfg2.N) :
    (dat2 V c).flushed 2 t = ((cfg2.win 2).blk t).view.read (Elt F) (k2_pay1 (V c main_v27) (V c main_arg6)) := by
  show (cfg2.win 2).cut (grid2.coords t) ((dat2 V c).after 2 t) = _
  rw [after2_2, iblk2_0, iblk2_1]
  unfold out2_2
  rw [View.canon_unit_zero hz]
  simp only [View.ld_unit_zero (S := S10000x128) hz, View.ld_unit_zero (S := S128x64) hz]
  funext y
  show k2_pay1 (V c main_v27) (V c main_arg6) y = k2_pay1 (V c main_v27) (V c main_arg6) (((cfg2.win 2).blk t).view.emb y)
  refine congrArg _ (funext fun a => Fin.ext ?_)
  have e0 : win2_2.index t (0 : Fin 2) = 0 := (idx2 t).2.2.2.2.1
  have e1 : win2_2.index t (1 : Fin 2) = 0 := (idx2 t).2.2.2.2.2
  match a with
  | ⟨0, _⟩ => show (y 0).val = win2_2.index t (0 : Fin 2) * 10000 + 1 * (y 0).val; omega
  | ⟨1, _⟩ => show (y 1).val = win2_2.index t (1 : Fin 2) * 64 + 1 * (y 1).val; omega

/-- An index is in the point's block iff each coordinate is in the block's range. -/
theorem mem_blk2 (t : Fin cfg2.N) (i : S10000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v28).slice (win2_2.rect t)).set ↔ _
  rw [View.set_slice_whole, Rect.mem_set_unit]
  exact Iff.rfl

/-- THE OUTPUT ARRAY of launch 2: the body's value of the whole input arrays as the launch finds them. -/
theorem final2 (c : Dev nD) : (dat2 V c).arrAt 2 cfg2.N = k2_pay1 (V c main_v27) (V c main_arg6) :=
  (dat2 V c).arrAt_eq_of_cover 2 (k2_pay1 (V c main_v27) (V c main_arg6)) (fun t _ => flushed2 V c t) fun i => by
    refine ⟨t2_0, flush2_2 _, ?_⟩
    rw [mem_blk2]
    have e0 : win2_2.index t2_0 (0 : Fin 2) = 0 := (idx2 t2_0).2.2.2.2.1
    have e1 : win2_2.index t2_0 (1 : Fin 2) = 0 := (idx2 t2_0).2.2.2.2.2
    intro a
    match a with
    | ⟨0, _⟩ => show win2_2.index t2_0 (0 : Fin 2) * 10000 ≤ (i 0).val ∧ (i 0).val < win2_2.index t2_0 (0 : Fin 2) * 10000 + 10000; have hlt : (i 0).val < 10000 := (i 0).isLt; omega
    | ⟨1, _⟩ => show win2_2.index t2_0 (1 : Fin 2) * 64 ≤ (i 1).val ∧ (i 1).val < win2_2.index t2_0 (1 : Fin 2) * 64 + 64; have hlt : (i 1).val < 64 := (i 1).isLt; omega

/-! ## Launch 3: one grid point, every window's block its whole array -/

/-- Every window of launch 3 sits at block (0, 0). -/
theorem idx3 : ∀ t : Fin cfg3.N, win3_0.index t (0 : Fin 2) = 0 ∧ win3_0.index t (1 : Fin 2) = 0 ∧ win3_1.index t (0 : Fin 2) = 0 ∧ win3_1.index t (1 : Fin 2) = 0 :=
  (by decide +kernel : ∀ t : Fin grid3.N, _)

/-- Input window 0's block is its whole array. -/
theorem iblk3_0 (c : Dev nD) (t : Fin cfg3.N) : iblk3 V c 0 t = V c main_v41 := by
  funext y
  show V c main_v41 (((cfg3.win 0).blk t).view.emb y) = V c main_v41 y
  refine congrArg _ (funext fun a => Fin.ext ?_)
  have e0 : win3_0.index t (0 : Fin 2) = 0 := (idx3 t).1
  have e1 : win3_0.index t (1 : Fin 2) = 0 := (idx3 t).2.1
  match a with
  | ⟨0, _⟩ => show win3_0.index t (0 : Fin 2) * 10000 + 1 * (y 0).val = (y 0).val; omega
  | ⟨1, _⟩ => show win3_0.index t (1 : Fin 2) * 64 + 1 * (y 1).val = (y 1).val; omega

/-- What the one point writes back is the body's value of the whole input arrays. -/
theorem flushed3 (c : Dev nD) (t : Fin cfg3.N) :
    (dat3 V c).flushed 1 t = ((cfg3.win 1).blk t).view.read (Elt F) (k3_pay1 (V c main_v41)) := by
  show (cfg3.win 1).cut (grid3.coords t) ((dat3 V c).after 1 t) = _
  rw [after3_1, iblk3_0]
  unfold out3_1
  rw [View.canon_unit_zero hz]
  simp only [View.ld_unit_zero (S := S10000x64) hz]
  funext y
  show k3_pay1 (V c main_v41) y = k3_pay1 (V c main_v41) (((cfg3.win 1).blk t).view.emb y)
  refine congrArg _ (funext fun a => Fin.ext ?_)
  have e0 : win3_1.index t (0 : Fin 2) = 0 := (idx3 t).2.2.1
  have e1 : win3_1.index t (1 : Fin 2) = 0 := (idx3 t).2.2.2
  match a with
  | ⟨0, _⟩ => show (y 0).val = win3_1.index t (0 : Fin 2) * 10000 + 1 * (y 0).val; omega
  | ⟨1, _⟩ => show (y 1).val = win3_1.index t (1 : Fin 2) * 64 + 1 * (y 1).val; omega

/-- An index is in the point's block iff each coordinate is in the block's range. -/
theorem mem_blk3 (t : Fin cfg3.N) (i : S10000x64.Idx) :
    i ∈ ((cfg3.win 1).blk t).view.set ↔ ∀ a : Fin 2, win3_1.index t a * S10000x64.size a ≤ (i a).val ∧ (i a).val < win3_1.index t a * S10000x64.size a + S10000x64.size a := by
  show i ∈ ((View.whole main_v42).slice (win3_1.rect t)).set ↔ _
  rw [View.set_slice_whole, Rect.mem_set_unit]
  exact Iff.rfl

/-- THE OUTPUT ARRAY of launch 3: the body's value of the whole input arrays as the launch finds them. -/
theorem final3 (c : Dev nD) : (dat3 V c).arrAt 1 cfg3.N = k3_pay1 (V c main_v41) :=
  (dat3 V c).arrAt_eq_of_cover 1 (k3_pay1 (V c main_v41)) (fun t _ => flushed3 V c t) fun i => by
    refine ⟨t3_0, flush3_1 _, ?_⟩
    rw [mem_blk3]
    have e0 : win3_1.index t3_0 (0 : Fin 2) = 0 := (idx3 t3_0).2.2.1
    have e1 : win3_1.index t3_0 (1 : Fin 2) = 0 := (idx3 t3_0).2.2.2
    intro a
    match a with
    | ⟨0, _⟩ => show win3_1.index t3_0 (0 : Fin 2) * 10000 ≤ (i 0).val ∧ (i 0).val < win3_1.index t3_0 (0 : Fin 2) * 10000 + 10000; have hlt : (i 0).val < 10000 := (i 0).isLt; omega
    | ⟨1, _⟩ => show win3_1.index t3_0 (1 : Fin 2) * 64 ≤ (i 1).val ∧ (i 1).val < win3_1.index t3_0 (1 : Fin 2) * 64 + 64; have hlt : (i 1).val < 64 := (i 1).isLt; omega

/-! ## Launch 4: one grid point, every window's block its whole array -/

/-- Every window of launch 4 sits at block (0, 0). -/
theorem idx4 : ∀ t : Fin cfg4.N, win4_0.index t (0 : Fin 2) = 0 ∧ win4_0.index t (1 : Fin 2) = 0 ∧ win4_1.index t (0 : Fin 2) = 0 ∧ win4_1.index t (1 : Fin 2) = 0 ∧ win4_2.index t (0 : Fin 2) = 0 ∧ win4_2.index t (1 : Fin 2) = 0 :=
  (by decide +kernel : ∀ t : Fin grid4.N, _)

/-- Input window 0's block is its whole array. -/
theorem iblk4_0 (c : Dev nD) (t : Fin cfg4.N) : iblk4 V c 0 t = V c main_v42 := by
  funext y
  show V c main_v42 (((cfg4.win 0).blk t).view.emb y) = V c main_v42 y
  refine congrArg _ (funext fun a => Fin.ext ?_)
  have e0 : win4_0.index t (0 : Fin 2) = 0 := (idx4 t).1
  have e1 : win4_0.index t (1 : Fin 2) = 0 := (idx4 t).2.1
  match a with
  | ⟨0, _⟩ => show win4_0.index t (0 : Fin 2) * 10000 + 1 * (y 0).val = (y 0).val; omega
  | ⟨1, _⟩ => show win4_0.index t (1 : Fin 2) * 64 + 1 * (y 1).val = (y 1).val; omega

/-- Input window 1's block is its whole array. -/
theorem iblk4_1 (c : Dev nD) (t : Fin cfg4.N) : iblk4 V c 1 t = V c main_v46 := by
  funext y
  show V c main_v46 (((cfg4.win 1).blk t).view.emb y) = V c main_v46 y
  refine congrArg _ (funext fun a => Fin.ext ?_)
  have e0 : win4_1.index t (0 : Fin 2) = 0 := (idx4 t).2.2.1
  have e1 : win4_1.index t (1 : Fin 2) = 0 := (idx4 t).2.2.2.1
  match a with
  | ⟨0, _⟩ => show win4_1.index t (0 : Fin 2) * 64 + 1 * (y 0).val = (y 0).val; omega
  | ⟨1, _⟩ => show win4_1.index t (1 : Fin 2) * 64 + 1 * (y 1).val = (y 1).val; omega

/-- What the one point writes back is the body's value of the whole input arrays. -/
theorem flushed4 (c : Dev nD) (t : Fin cfg4.N) :
    (dat4 V c).flushed 2 t = ((cfg4.win 2).blk t).view.read (Elt F) (k4_pay1 (V c main_v42) (V c main_v46)) := by
  show (cfg4.win 2).cut (grid4.coords t) ((dat4 V c).after 2 t) = _
  rw [after4_2, iblk4_0, iblk4_1]
  unfold out4_2
  rw [View.canon_unit_zero hz]
  simp only [View.ld_unit_zero (S := S10000x64) hz, View.ld_unit_zero (S := S64x64) hz]
  funext y
  show k4_pay1 (V c main_v42) (V c main_v46) y = k4_pay1 (V c main_v42) (V c main_v46) (((cfg4.win 2).blk t).view.emb y)
  refine congrArg _ (funext fun a => Fin.ext ?_)
  have e0 : win4_2.index t (0 : Fin 2) = 0 := (idx4 t).2.2.2.2.1
  have e1 : win4_2.index t (1 : Fin 2) = 0 := (idx4 t).2.2.2.2.2
  match a with
  | ⟨0, _⟩ => show (y 0).val = win4_2.index t (0 : Fin 2) * 10000 + 1 * (y 0).val; omega
  | ⟨1, _⟩ => show (y 1).val = win4_2.index t (1 : Fin 2) * 64 + 1 * (y 1).val; omega

/-- An index is in the point's block iff each coordinate is in the block's range. -/
theorem mem_blk4 (t : Fin cfg4.N) (i : S10000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v47).slice (win4_2.rect t)).set ↔ _
  rw [View.set_slice_whole, Rect.mem_set_unit]
  exact Iff.rfl

/-- THE OUTPUT ARRAY of launch 4: the body's value of the whole input arrays as the launch finds them. -/
theorem final4 (c : Dev nD) : (dat4 V c).arrAt 2 cfg4.N = k4_pay1 (V c main_v42) (V c main_v46) :=
  (dat4 V c).arrAt_eq_of_cover 2 (k4_pay1 (V c main_v42) (V c main_v46)) (fun t _ => flushed4 V c t) fun i => by
    refine ⟨t4_0, flush4_2 _, ?_⟩
    rw [mem_blk4]
    have e0 : win4_2.index t4_0 (0 : Fin 2) = 0 := (idx4 t4_0).2.2.2.2.1
    have e1 : win4_2.index t4_0 (1 : Fin 2) = 0 := (idx4 t4_0).2.2.2.2.2
    intro a
    match a with
    | ⟨0, _⟩ => show win4_2.index t4_0 (0 : Fin 2) * 10000 ≤ (i 0).val ∧ (i 0).val < win4_2.index t4_0 (0 : Fin 2) * 10000 + 10000; have hlt : (i 0).val < 10000 := (i 0).isLt; omega
    | ⟨1, _⟩ => show win4_2.index t4_0 (1 : Fin 2) * 64 ≤ (i 1).val ∧ (i 1).val < win4_2.index t4_0 (1 : Fin 2) * 64 + 64; have hlt : (i 1).val < 64 := (i 1).isLt; omega

end Cert.KernelIdeal.Value6

end
-- ==== Proof.LibDotRows.lean ====
/-
  The product of a matrix with the transpose of another, `[a, K] · [b, K]ᵀ` (both operands contracted on their last
  axis, no batch axes), read at an entry on the extended reals: `(x · yᵀ)[p, c] = Σₖ x[p, k] · y[c, k]`, the sum over
  `Fin K` — the inner product of row `p` of the left operand with row `c` of the right one. Stated for any dimension
  record of that form, then for a kernel's matrix-unit product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The dimension numbers of a row-by-row product: contract the left operand's axis 1 with the right operand's axis 1,
    keep the two operands' axes 0, no batch axes. -/
structure IsRows {a K b : ℕ} (D : DotDims ⟨2, ![a, K]⟩ ⟨2, ![b, K]⟩ ⟨2, ![a, b]⟩) : Prop where
  lc : D.lhsContracting = [1]
  rc : D.rhsContracting = [1]
  ln : D.lhsNonContracting = [0]
  rn : D.rhsNonContracting = [0]
  lb : D.lhsBatch = []
  rb : D.rhsBatch = []

/-- The record of a row-by-row product, its lists spelt out. -/
abbrev mk {a K b : ℕ} (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ := ⟨[1], [1], [0], [0], [], [], wf⟩

section
variable {a K b : ℕ} (wf : DotDims.WF ⟨2, ![a, K]⟩ ⟨2, ![b, K]⟩ ⟨2, ![a, b]⟩ [1] [1] [0] [0] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the entry's column. -/
theorem rhs_row (i : (⟨2, ![a, b]⟩ : Shape).Idx) (q : (mk wf).contr.Idx) : ((mk wf).rhsIdx i q 0).val = (i 1).val := by
  unfold DotDims.rhsIdx
  rw [dif_neg (show ¬(0 : Fin (Shape.rank ⟨2, ![b, K]⟩)) ∈ (mk wf).rhsBatch from fun h => nomatch h),
    dif_pos (show (0 : Fin (Shape.rank ⟨2, ![b, K]⟩)) ∈ (mk wf).rhsNonContracting from List.Mem.head _)]
  rfl

/-- The right operand's column is the contraction coordinate. -/
theorem rhs_col (i : (⟨2, ![a, b]⟩ : Shape).Idx) (q : (mk wf).contr.Idx) :
    ((mk wf).rhsIdx i q 1).val = (q ⟨0, Nat.one_pos⟩).val :=
  (mk wf).rhsIdx_val_of_single rfl i q

/-- The contraction at `(p, c)`, for the spelt-out record. -/
theorem sum_mk (x : (⟨2, ![a, K]⟩ : Shape).Idx → EReal) (y : (⟨2, ![b, K]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 c k) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 c k := funext fun ax => Fin.ext (by
    match ax with
    | ⟨0, _⟩ => exact rhs_row wf _ _
    | ⟨1, _⟩ => exact (rhs_col wf _ _).trans hk)
  rw [el, er]

end

/-- The contraction of a row-by-row product at the entry `(p, c)` is the inner product of the two rows. -/
theorem sum_rows {a K b : ℕ} (D : DotDims ⟨2, ![a, K]⟩ ⟨2, ![b, K]⟩ ⟨2, ![a, b]⟩) (h : IsRows D)
    (x : (⟨2, ![a, K]⟩ : Shape).Idx → EReal) (y : (⟨2, ![b, K]⟩ : Shape).Idx → EReal) (p : Fin a) (c : Fin b) :
    ∑ k : D.contr.Idx, x (D.lhsIdx (ix2 p c) k) * y (D.rhsIdx (ix2 p c) k) = ∑ k : Fin K, x (ix2 p k) * y (ix2 c k) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's row-by-row matrix product into the zero accumulator, at an entry. -/
theorem matmul_zero_apply {a K b : ℕ} {φ₁ φ₂ : FTy} (D : DotDims ⟨2, ![a, K]⟩ ⟨2, ![b, K]⟩ ⟨2, ![a, b]⟩) (h : IsRows D)
    (prec : Option ContractPrecision) (x : FVec Ideal ⟨2, ![a, K]⟩ φ₁) (y : FVec Ideal ⟨2, ![b, K]⟩ φ₂) (p : Fin a) (c : Fin b) :
    FloatOps.matmul D prec x y (constant ⟨2, ![a, b]⟩ .f32 0x00000000#32) (ix2 p c) = ∑ k : Fin K, x (ix2 p k) * y (ix2 c k) :=
  (Ideal.matmul_constant_zero_apply D prec x y (ix2 p c)).trans (sum_rows D h x y p c)

end Cert.LibDotRows

end
-- ==== Proof.LibRowsLogistic.lean ====
/-
  The logistic of all pairwise inner products of the rows of one matrix with the rows of another:
      rowsLogistic sh h [i, j] = logistic (Σₖ sh[i, k] · h[j, k]),
  as one function of the two whole arrays, on the extended reals. Generic in the two extents; nothing mentions a
  program.
-/
import Idealize.ShloMosaic.PureOps.Ideal
import Idealize.ShloMosaic.Lib.ValueIdx

noncomputable section

namespace Cert.Algebra

open Idealize.ShloMosaic Idealize.ShloMosaic.ValueIdx

/-- Entry (i, j): the logistic of the inner product of row i of `sh` with row j of `h`. -/
def rowsLogistic {n d : ℕ} (sh h : (⟨2, ![n, d]⟩ : Shape).Idx → EReal) : (⟨2, ![n, n]⟩ : Shape).Idx → EReal := fun i =>
  Ideal.logistic (∑ k : Fin d, sh (ix2 (⟨(i 0).val, idx2_lt0 i⟩ : Fin n) k) * h (ix2 (⟨(i 1).val, idx2_lt1 i⟩ : Fin n) k))

theorem rowsLogistic_apply {n d : ℕ} (sh h : (⟨2, ![n, d]⟩ : Shape).Idx → EReal) (p q : Fin n) :
    rowsLogistic sh h (ix2 p q) = Ideal.logistic (∑ k : Fin d, sh (ix2 p k) * h (ix2 q k)) := rfl

end Cert.Algebra

end
-- ==== Proof.KernelTiled.lean ====
/-
  The last launch: fifty grid points, point t taking rows 200·t … 200·t + 199 of its first operand (the product
  h · S), the whole second operand (the embedding h) at every point, and writing rows 200·t … 200·t + 199 of the
  result. The body's value at entry (p, q) of its block is the logistic of the inner product of row p of its first
  block with row q of h. So the blocks are the restrictions of ONE function of the two whole arrays,
      out[i, j] = logistic (Σₖ sh[i, k] · h[j, k]),
  and since the fifty row slabs tile the result, the result array after the launch is that function.
-/
import proofs.«109711_j64295660421451_1_alg».proof.Proof.Gen.KernelIdeal.Frame
import proofs.«109711_j64295660421451_1_alg».proof.Proof.LibDotRows
import proofs.«109711_j64295660421451_1_alg».proof.Proof.LibRowsLogistic
import Idealize.ShloMosaic.Lib.Pipeline.Value
import Idealize.ShloMosaic.Lib.ValueIdx

set_option maxRecDepth 16384

noncomputable section

namespace Cert.KernelIdeal.Value6

open Cert.KernelIdeal Cert.KernelIdeal.Gen
open Idealize.ShloMosaic Idealize.ShloMosaic.TcCoe Idealize.ShloMosaic.ValueIdx Idealize.SL Idealize.SL.Sem
open Idealize.ShloMosaic.Pipeline (Dat Cfg Window)
open Cert.Algebra (rowsLogistic rowsLogistic_apply)

variable (V : (c : Dev nD) → (b : Ref sig .tc) → Buf (Elt Ideal) ((c : Thread nD τ).loc b))

theorem hz5 : (![0, 0] : Fin 2 → Nat) = fun _ => 0 := funext fun a => by fin_cases a <;> rfl

/-- The body's value at entry (p, q) of its block: the logistic of the inner product of row p of the first block
    with row q of the second operand. -/
theorem pay5_apply (x0 : Vec Ideal S200x64 .f32) (x1 : Vec Ideal S10000x64 .f32) (p : Fin 200) (q : Fin 10000) :
    k5_pay1 (F := Ideal) x0 x1 (ix2 p q) = Ideal.logistic (∑ k : Fin 64, x0 (ix2 p k) * x1 (ix2 q k)) := by
  unfold k5_pay1
  show Ideal.logistic (FloatOps.matmul (F := Ideal) dot_S200x64_S10000x64_S200x10000_1_1_0_0_n_n none _ _ (constant S200x10000 .f32 0x00000000#32) (ix2 p q)) = _
  refine congrArg Ideal.logistic ?_
  refine (Cert.LibDotRows.matmul_zero_apply dot_S200x64_S10000x64_S200x10000_1_1_0_0_n_n ⟨rfl, rfl, rfl, rfl, rfl, rfl⟩ none _ _ p q).trans ?_
  refine Finset.sum_congr rfl fun k _ => ?_
  show shapeCast S200x64 x0 _ (ix2 p k) * shapeCast S10000x64 x1 _ (ix2 q k) = _
  rw [shapeCast_self, shapeCast_self]

/-- The windows' block indices over the grid: the first operand and the result move with the point along the rows;
    the second operand stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The second operand's block is its whole array at every point. -/
theorem iblk5_1 (c : Dev nD) (t : Fin cfg5.N) : iblk5 V c 1 t = V c main_v42 := by
  funext y
  show V c main_v42 (((cfg5.win 1).blk t).view.emb y) = V c main_v42 y
  refine congrArg _ (funext fun a => Fin.ext ?_)
  obtain ⟨-, -, e0, e1, -, -⟩ := idx5 t
  match a with
  | ⟨0, _⟩ => show win5_1.index t (0 : Fin 2) * 10000 + 1 * (y 0).val = (y 0).val; omega
  | ⟨1, _⟩ => show win5_1.index t (1 : Fin 2) * 64 + 1 * (y 1).val = (y 1).val; omega

/-- The first operand's block at point t, at (p, k): the array at row 200·t + p. -/
theorem iblk5_0_apply (c : Dev nD) (t : Fin cfg5.N) (p : Fin 200) (k : Fin 64) (hp : t.val * 200 + p.val < 10000) :
    iblk5 V c 0 t (ix2 p k) = V c main_v47 (ix2 (⟨t.val * 200 + p.val, hp⟩ : Fin 10000) k) := by
  show V c main_v47 (((cfg5.win 0).blk t).view.emb (ix2 p k)) = _
  refine congrArg _ (funext fun a => Fin.ext ?_)
  obtain ⟨e0, e1, -, -, -, -⟩ := idx5 t
  match a with
  | ⟨0, _⟩ => show win5_0.index t (0 : Fin 2) * 200 + 1 * p.val = t.val * 200 + p.val; omega
  | ⟨1, _⟩ => show win5_0.index t (1 : Fin 2) * 64 + 1 * k.val = k.val; omega

/-- The result's block at point t holds, at (p, q), the array's entry (200·t + p, q). -/
theorem emb5_2 (t : Fin cfg5.N) (p : Fin 200) (q : Fin 10000) (hp : t.val * 200 + p.val < 10000) :
    ((cfg5.win 2).blk t).view.emb (ix2 p q) = ix2 (⟨t.val * 200 + p.val, hp⟩ : Fin 10000) q := by
  refine funext fun a => Fin.ext ?_
  obtain ⟨-, -, -, -, e0, e1⟩ := idx5 t
  match a with
  | ⟨0, _⟩ => show win5_2.index t (0 : Fin 2) * 200 + 1 * p.val = t.val * 200 + p.val; omega
  | ⟨1, _⟩ => show win5_2.index t (1 : Fin 2) * 10000 + 1 * q.val = q.val; omega

/-- What point t writes back is block t of the one whole-array function. -/
theorem flushed5 (c : Dev nD) (t : Fin cfg5.N) :
    (dat5 V c).flushed 2 t = ((cfg5.win 2).blk t).view.read (Elt Ideal) (rowsLogistic (n := 10000) (d := 64) (V c main_v47) (V c main_v42)) := by
  show (cfg5.win 2).cut (grid5.coords t) ((dat5 V c).after 2 t) = _
  rw [after5_2, iblk5_1]
  unfold out5_2
  rw [View.canon_unit_zero hz5]
  simp only [View.ld_unit_zero (S := S200x64) hz5, View.ld_unit_zero (S := S10000x64) hz5]
  funext y
  obtain ⟨p, q, rfl⟩ : ∃ (p : Fin 200) (q : Fin 10000), y = ix2 p q := ⟨y 0, y 1, eq_ix2 y⟩
  have ht : t.val < 50 := Nat.lt_of_lt_of_eq t.isLt N_5
  have hp : t.val * 200 + p.val < 10000 := by have := p.isLt; omega
  show k5_pay1 (F := Ideal) (iblk5 V c 0 t) (V c main_v42) (ix2 p q) = rowsLogistic (n := 10000) (d := 64) (V c main_v47) (V c main_v42) (((cfg5.win 2).blk t).view.emb (ix2 p q))
  rw [emb5_2 t p q hp, rowsLogistic_apply]
  refine (pay5_apply (iblk5 V c 0 t) (V c main_v42) p q).trans ?_
  refine congrArg Ideal.logistic (Finset.sum_congr rfl fun k _ => ?_)
  rw [iblk5_0_apply V c t p k hp]

/-- An index is in point t's block iff each coordinate is in the block's range. -/
theorem mem_blk5 (t : Fin cfg5.N) (i : S10000x10000.Idx) :
    i ∈ ((cfg5.win 2).blk t).view.set ↔ ∀ a : Fin 2, win5_2.index t a * S200x10000.size a ≤ (i a).val ∧ (i a).val < win5_2.index t a * S200x10000.size a + S200x10000.size a := by
  show i ∈ ((View.whole main_v48).slice (win5_2.rect t)).set ↔ _
  rw [View.set_slice_whole, Rect.mem_set_unit]
  exact Iff.rfl

/-- THE RESULT ARRAY after the last launch: the logistic of the pairwise inner products of the rows of the two
    operand arrays as the launch finds them. -/
theorem final5 (c : Dev nD) : (dat5 V c).arrAt 2 cfg5.N = rowsLogistic (n := 10000) (d := 64) (V c main_v47) (V c main_v42) :=
  (dat5 V c).arrAt_eq_of_cover 2 (rowsLogistic (n := 10000) (d := 64) (V c main_v47) (V c main_v42)) (fun t _ => flushed5 V c t) fun i => by
    have hi0 : (i 0).val < 10000 := (i 0).isLt
    have hi1 : (i 1).val < 10000 := (i 1).isLt
    have hN : (i 0).val / 200 < cfg5.N := Nat.lt_of_lt_of_eq (by omega : (i 0).val / 200 < 50) N_5.symm
    refine ⟨⟨(i 0).val / 200, hN⟩, flush5_2 _, ?_⟩
    rw [mem_blk5]
    obtain ⟨-, -, -, -, e0, e1⟩ := idx5 ⟨(i 0).val / 200, hN⟩
    intro a
    match a with
    | ⟨0, _⟩ =>
      show win5_2.index ⟨(i 0).val / 200, hN⟩ (0 : Fin 2) * 200 ≤ (i 0).val ∧ (i 0).val < win5_2.index ⟨(i 0).val / 200, hN⟩ (0 : Fin 2) * 200 + 200
      rw [e0]
      show (i 0).val / 200 * 200 ≤ (i 0).val ∧ (i 0).val < (i 0).val / 200 * 200 + 200
      omega
    | ⟨1, _⟩ =>
      show win5_2.index ⟨(i 0).val / 200, hN⟩ (1 : Fin 2) * 10000 ≤ (i 1).val ∧ (i 1).val < win5_2.index ⟨(i 0).val / 200, hN⟩ (1 : Fin 2) * 10000 + 10000
      omega

end Cert.KernelIdeal.Value6

end
-- ==== Proof.KernelFold.lean ====
/-
  The idealized kernel's result array as one function of its eight argument arrays, read back through the program:
  each launch leaves its output array at the body's value of the arrays it found, each stretch of host operations —
  the sparse product between two layers (a row gather, a scaling, an accumulating scatter), and the symmetrised
  weight before the bilinear stage — is its operations' composed term of the buffers it reads, and no step writes an
  argument array. Composing the ten steps:
      t1 = x·W0,  m1 = spmm t1,  t2 = elu(m1)·W1,  m2 = spmm t2,  t3 = elu(m2)·W2,  m3 = spmm t3,  h = elu m3,
      S = (Wb + Wbᵀ)·½,  sh = h·S,  result = logistic of the pairwise row inner products of sh and h,
  with the five one-point bodies still as the kernel's own pure terms.
-/
import proofs.«109711_j64295660421451_1_alg».proof.Proof.Gen.KernelIdeal.Frame
import proofs.«109711_j64295660421451_1_alg».proof.Proof.KernelWhole
import proofs.«109711_j64295660421451_1_alg».proof.Proof.KernelTiled
import proofs.«109711_j64295660421451_1_alg».proof.Proof.RefTerm
import Idealize.ShloMosaic.Lib.StableHlo.Run

set_option maxRecDepth 16384

noncomputable section

namespace Cert.KernelIdeal.Value6

open Cert.KernelIdeal Cert.KernelIdeal.Gen
open Idealize.ShloMosaic Idealize.ShloMosaic.TcCoe Idealize.SL Idealize.SL.Sem Idealize.ShloMosaic.StableHlo
open Cert.ReferenceIdeal (Term.spmm128 Term.spmm64 Term.symHalf)
open Cert.Algebra (rowsLogistic)

/-! ## The host stretches over any contents -/

section Host
variable {F : FTy → Type} [FloatOps F] (Wv : Valuation τ sig (Elt F))

set_option maxHeartbeats 2000000 in
/-- The first sparse product: the stretch's result buffer from the buffers it reads. -/
theorem host1_v13 : StableHlo.after hostOps1 Wv (Proc.devRef .tc main_v13)
    = Term.spmm128 (Wv (Proc.devRef .tc main_arg1)) (Wv (Proc.devRef .tc main_arg2)) (Wv (Proc.devRef .tc main_arg3)) (Wv (Proc.devRef .tc main_v0)) := by
  after_results_simp
  rfl
set_option maxHeartbeats 2000000 in
/-- The second sparse product. -/
theorem host2_v27 : StableHlo.after hostOps2 Wv (Proc.devRef .tc main_v27)
    = Term.spmm128 (Wv (Proc.devRef .tc main_arg1)) (Wv (Proc.devRef .tc main_arg2)) (Wv (Proc.devRef .tc main_arg3)) (Wv (Proc.devRef .tc main_v14)) := by
  after_results_simp
  rfl
set_option maxHeartbeats 2000000 in
/-- The third sparse product, on 64 columns. -/
theorem host3_v41 : StableHlo.after hostOps3 Wv (Proc.devRef .tc main_v41)
    = Term.spmm64 (Wv (Proc.devRef .tc main_arg1)) (Wv (Proc.devRef .tc main_arg2)) (Wv (Proc.devRef .tc main_arg3)) (Wv (Proc.devRef .tc main_v28)) := by
  after_results_simp
  rfl
/-- The symmetrised weight. -/
theorem host4_v46 : StableHlo.after hostOps4 Wv (Proc.devRef .tc main_v46) = Term.symHalf (Wv (Proc.devRef .tc main_arg7)) := by
  after_results_simp
  rfl
/-- Stretch 1 does not write `main_arg1`. -/
theorem host1_main_arg1 : StableHlo.after hostOps1 Wv (Proc.devRef .tc main_arg1) = Wv (Proc.devRef .tc main_arg1) := by
  after_results
/-- Stretch 1 does not write `main_arg2`. -/
theorem host1_main_arg2 : StableHlo.after hostOps1 Wv (Proc.devRef .tc main_arg2) = Wv (Proc.devRef .tc main_arg2) := by
  after_results
/-- Stretch 1 does not write `main_arg3`. -/
theorem host1_main_arg3 : StableHlo.after hostOps1 Wv (Proc.devRef .tc main_arg3) = Wv (Proc.devRef .tc main_arg3) := by
  after_results
/-- Stretch 1 does not write `main_arg5`. -/
theorem host1_main_arg5 : StableHlo.after hostOps1 Wv (Proc.devRef .tc main_arg5) = Wv (Proc.devRef .tc main_arg5) := by
  after_results
/-- Stretch 1 does not write `main_arg6`. -/
theorem host1_main_arg6 : StableHlo.after hostOps1 Wv (Proc.devRef .tc main_arg6) = Wv (Proc.devRef .tc main_arg6) := by
  after_results
/-- Stretch 1 does not write `main_arg7`. -/
theorem host1_main_arg7 : StableHlo.after hostOps1 Wv (Proc.devRef .tc main_arg7) = Wv (Proc.devRef .tc main_arg7) := by
  after_results
/-- Stretch 2 does not write `main_arg1`. -/
theorem host2_main_arg1 : StableHlo.after hostOps2 Wv (Proc.devRef .tc main_arg1) = Wv (Proc.devRef .tc main_arg1) := by
  after_results
/-- Stretch 2 does not write `main_arg2`. -/
theorem host2_main_arg2 : StableHlo.after hostOps2 Wv (Proc.devRef .tc main_arg2) = Wv (Proc.devRef .tc main_arg2) := by
  after_results
/-- Stretch 2 does not write `main_arg3`. -/
theorem host2_main_arg3 : StableHlo.after hostOps2 Wv (Proc.devRef .tc main_arg3) = Wv (Proc.devRef .tc main_arg3) := by
  after_results
/-- Stretch 2 does not write `main_arg6`. -/
theorem host2_main_arg6 : StableHlo.after hostOps2 Wv (Proc.devRef .tc main_arg6) = Wv (Proc.devRef .tc main_arg6) := by
  after_results
/-- Stretch 2 does not write `main_arg7`. -/
theorem host2_main_arg7 : StableHlo.after hostOps2 Wv (Proc.devRef .tc main_arg7) = Wv (Proc.devRef .tc main_arg7) := by
  after_results
/-- Stretch 3 does not write `main_arg7`. -/
theorem host3_main_arg7 : StableHlo.after hostOps3 Wv (Proc.devRef .tc main_arg7) = Wv (Proc.devRef .tc main_arg7) := by
  after_results
/-- Stretch 4 does not write `main_v42`. -/
theorem host4_main_v42 : StableHlo.after hostOps4 Wv (Proc.devRef .tc main_v42) = Wv (Proc.devRef .tc main_v42) := by
  after_results

end Host

/-! ## The fold through the program, at the extended reals -/

theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

section Fold
set_option quotPrecheck false
variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "T1" => k0_pay1 (F := Ideal) A0 A4
local notation "M1" => Term.spmm128 (F := Ideal) A1 A2 A3 T1
local notation "T2" => k1_pay1 (F := Ideal) M1 A5
local notation "M2" => Term.spmm128 (F := Ideal) A1 A2 A3 T2
local notation "T3" => k2_pay1 (F := Ideal) M2 A6
local notation "M3" => Term.spmm64 (F := Ideal) A1 A2 A3 T3
local notation "HH" => k3_pay1 (F := Ideal) M3
local notation "SS" => Term.symHalf (F := Ideal) A7

/-! ### After launch 0 -/
theorem W1_v0 : W1 m ρ c (Proc.devRef .tc main_v0) = T1 := (W1_arr m ρ c 2).trans (final0 (V0 m ρ) c)
theorem W1_arg1 : W1 m ρ c (Proc.devRef .tc main_arg1) = A1 := W1_of_ne m ρ c main_arg1 (by decide)
theorem W1_arg2 : W1 m ρ c (Proc.devRef .tc main_arg2) = A2 := W1_of_ne m ρ c main_arg2 (by decide)
theorem W1_arg3 : W1 m ρ c (Proc.devRef .tc main_arg3) = A3 := W1_of_ne m ρ c main_arg3 (by decide)
theorem W1_arg5 : W1 m ρ c (Proc.devRef .tc main_arg5) = A5 := W1_of_ne m ρ c main_arg5 (by decide)
theorem W1_arg6 : W1 m ρ c (Proc.devRef .tc main_arg6) = A6 := W1_of_ne m ρ c main_arg6 (by decide)
theorem W1_arg7 : W1 m ρ c (Proc.devRef .tc main_arg7) = A7 := W1_of_ne m ρ c main_arg7 (by decide)

/-! ### After the first sparse product -/
theorem W2_v13 : W2 m ρ c (Proc.devRef .tc main_v13) = M1 :=
  (host1_v13 (W1 m ρ c)).trans (congr4 (Term.spmm128 (F := Ideal)) (W1_arg1 m ρ c) (W1_arg2 m ρ c) (W1_arg3 m ρ c) (W1_v0 m ρ c))
theorem W2_arg1 : W2 m ρ c (Proc.devRef .tc main_arg1) = A1 := (host1_main_arg1 (W1 m ρ c)).trans (W1_arg1 m ρ c)
theorem W2_arg2 : W2 m ρ c (Proc.devRef .tc main_arg2) = A2 := (host1_main_arg2 (W1 m ρ c)).trans (W1_arg2 m ρ c)
theorem W2_arg3 : W2 m ρ c (Proc.devRef .tc main_arg3) = A3 := (host1_main_arg3 (W1 m ρ c)).trans (W1_arg3 m ρ c)
theorem W2_arg5 : W2 m ρ c (Proc.devRef .tc main_arg5) = A5 := (host1_main_arg5 (W1 m ρ c)).trans (W1_arg5 m ρ c)
theorem W2_arg6 : W2 m ρ c (Proc.devRef .tc main_arg6) = A6 := (host1_main_arg6 (W1 m ρ c)).trans (W1_arg6 m ρ c)
theorem W2_arg7 : W2 m ρ c (Proc.devRef .tc main_arg7) = A7 := (host1_main_arg7 (W1 m ρ c)).trans (W1_arg7 m ρ c)

/-! ### After launch 1 -/
theorem W3_v14 : W3 m ρ c (Proc.devRef .tc main_v14) = T2 :=
  (W3_arr m ρ c 2).trans ((final1 (V2 m ρ) c).trans (congrArg₂ (k1_pay1 (F := Ideal)) (W2_v13 m ρ c) (W2_arg5 m ρ c)))
theorem W3_arg1 : W3 m ρ c (Proc.devRef .tc main_arg1) = A1 := (W3_of_ne m ρ c main_arg1 (by decide)).trans (W2_arg1 m ρ c)
theorem W3_arg2 : W3 m ρ c (Proc.devRef .tc main_arg2) = A2 := (W3_of_ne m ρ c main_arg2 (by decide)).trans (W2_arg2 m ρ c)
theorem W3_arg3 : W3 m ρ c (Proc.devRef .tc main_arg3) = A3 := (W3_of_ne m ρ c main_arg3 (by decide)).trans (W2_arg3 m ρ c)
theorem W3_arg6 : W3 m ρ c (Proc.devRef .tc main_arg6) = A6 := (W3_of_ne m ρ c main_arg6 (by decide)).trans (W2_arg6 m ρ c)
theorem W3_arg7 : W3 m ρ c (Proc.devRef .tc main_arg7) = A7 := (W3_of_ne m ρ c main_arg7 (by decide)).trans (W2_arg7 m ρ c)

/-! ### After the second sparse product -/
theorem W4_v27 : W4 m ρ c (Proc.devRef .tc main_v27) = M2 :=
  (host2_v27 (W3 m ρ c)).trans (congr4 (Term.spmm128 (F := Ideal)) (W3_arg1 m ρ c) (W3_arg2 m ρ c) (W3_arg3 m ρ c) (W3_v14 m ρ c))
theorem W4_arg1 : W4 m ρ c (Proc.devRef .tc main_arg1) = A1 := (host2_main_arg1 (W3 m ρ c)).trans (W3_arg1 m ρ c)
theorem W4_arg2 : W4 m ρ c (Proc.devRef .tc main_arg2) = A2 := (host2_main_arg2 (W3 m ρ c)).trans (W3_arg2 m ρ c)
theorem W4_arg3 : W4 m ρ c (Proc.devRef .tc main_arg3) = A3 := (host2_main_arg3 (W3 m ρ c)).trans (W3_arg3 m ρ c)
theorem W4_arg6 : W4 m ρ c (Proc.devRef .tc main_arg6) = A6 := (host2_main_arg6 (W3 m ρ c)).trans (W3_arg6 m ρ c)
theorem W4_arg7 : W4 m ρ c (Proc.devRef .tc main_arg7) = A7 := (host2_main_arg7 (W3 m ρ c)).trans (W3_arg7 m ρ c)

/-! ### After launch 2 -/
theorem W5_v28 : W5 m ρ c (Proc.devRef .tc main_v28) = T3 :=
  (W5_arr m ρ c 2).trans ((final2 (V4 m ρ) c).trans (congrArg₂ (k2_pay1 (F := Ideal)) (W4_v27 m ρ c) (W4_arg6 m ρ c)))
theorem W5_arg1 : W5 m ρ c (Proc.devRef .tc main_arg1) = A1 := (W5_of_ne m ρ c main_arg1 (by decide)).trans (W4_arg1 m ρ c)
theorem W5_arg2 : W5 m ρ c (Proc.devRef .tc main_arg2) = A2 := (W5_of_ne m ρ c main_arg2 (by decide)).trans (W4_arg2 m ρ c)
theorem W5_arg3 : W5 m ρ c (Proc.devRef .tc main_arg3) = A3 := (W5_of_ne m ρ c main_arg3 (by decide)).trans (W4_arg3 m ρ c)
theorem W5_arg7 : W5 m ρ c (Proc.devRef .tc main_arg7) = A7 := (W5_of_ne m ρ c main_arg7 (by decide)).trans (W4_arg7 m ρ c)

/-! ### After the third sparse product -/
theorem W6_v41 : W6 m ρ c (Proc.devRef .tc main_v41) = M3 :=
  (host3_v41 (W5 m ρ c)).trans (congr4 (Term.spmm64 (F := Ideal)) (W5_arg1 m ρ c) (W5_arg2 m ρ c) (W5_arg3 m ρ c) (W5_v28 m ρ c))
theorem W6_arg7 : W6 m ρ c (Proc.devRef .tc main_arg7) = A7 := (host3_main_arg7 (W5 m ρ c)).trans (W5_arg7 m ρ c)

/-! ### After launch 3 -/
theorem W7_v42 : W7 m ρ c (Proc.devRef .tc main_v42) = HH :=
  (W7_arr m ρ c 1).trans ((final3 (V6 m ρ) c).trans (congrArg (k3_pay1 (F := Ideal)) (W6_v41 m ρ c)))
theorem W7_arg7 : W7 m ρ c (Proc.devRef .tc main_arg7) = A7 := (W7_of_ne m ρ c main_arg7 (by decide)).trans (W6_arg7 m ρ c)

/-! ### After the symmetrised weight -/
theorem W8_v46 : W8 m ρ c (Proc.devRef .tc main_v46) = SS := (host4_v46 (W7 m ρ c)).trans (congrArg (Term.symHalf (F := Ideal)) (W7_arg7 m ρ c))
theorem W8_v42 : W8 m ρ c (Proc.devRef .tc main_v42) = HH := (host4_main_v42 (W7 m ρ c)).trans (W7_v42 m ρ c)

/-! ### After launch 4 -/
theorem W9_v47 : W9 m ρ c (Proc.devRef .tc main_v47) = k4_pay1 (F := Ideal) HH SS :=
  (W9_arr m ρ c 2).trans ((final4 (V8 m ρ) c).trans (congrArg₂ (k4_pay1 (F := Ideal)) (W8_v42 m ρ c) (W8_v46 m ρ c)))
theorem W9_v42 : W9 m ρ c (Proc.devRef .tc main_v42) = HH :=
  (W9_arr m ρ c 0).trans (((dat4 (V8 m ρ) c).arrAt_in 0 rfl _).trans ((A_eq4 (V8 m ρ) c 0).trans (W8_v42 m ρ c)))

/-! ### After the last launch -/
/-- THE KERNEL'S RESULT ARRAY as one function of the argument arrays. -/
theorem out_eq : V10 m ρ c main_v48 = rowsLogistic (n := 10000) (d := 64) (k4_pay1 (F := Ideal) HH SS) HH :=
  (W10_arr m ρ c 2).trans ((final5 (V9 m ρ) c).trans (congrArg₂ (rowsLogistic (n := 10000) (d := 64)) (W9_v47 m ρ c) (W9_v42 m ρ c)))

end Fold

end Cert.KernelIdeal.Value6

end
-- ==== Proof.LibReal.lean ====
/-
  Real-valued extended reals.

  On the extended reals the laws that a rearrangement of a computation needs — distributivity, cancelling, moving a
  factor across a sum — fail at the infinities. A computation whose inputs are finite never leaves the reals as long as
  it adds, subtracts, multiplies, takes maxima and finite sums, divides by a nonzero real, takes the reciprocal square
  root of a positive real, exponentials and logistic values. This file is that closure, stated with the predicate
  `IsReal x` ("x is the coercion of a real number"), together with the sign facts a later division needs (a logistic
  value is positive; a sum of nonnegative reals is nonnegative).

  Generic; nothing mentions a program.
-/
import Idealize.ShloMosaic.PureOps.Ideal

noncomputable section

namespace Cert.Lib.Real

open Idealize.ShloMosaic

/-- `x` is (the coercion of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption

/-- A finite sum of reals is a real. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real by a nonzero real is a real. -/
theorem IsReal.div {x : EReal} (hx : IsReal x) {r : ℝ} (hr : r ≠ 0) : IsReal (Ideal.div x (r : EReal)) := by
  obtain ⟨a, rfl⟩ := hx
  rw [Ideal.div_coe hr, ← EReal.coe_mul]
  exact ⟨_, rfl⟩

/-- The exponential of a real is a real. -/
theorem IsReal.exp {x : EReal} (hx : IsReal x) : IsReal (Ideal.exp x) := by
  obtain ⟨a, rfl⟩ := hx; exact ⟨Real.exp a, Ideal.exp_coe a⟩

/-- The logistic value of a real is a POSITIVE real. -/
theorem logistic_coe_pos (a : ℝ) : ∃ r : ℝ, 0 < r ∧ Ideal.logistic (a : EReal) = (r : EReal) :=
  ⟨(1 + Real.exp (-a))⁻¹, inv_pos.mpr (by positivity), Ideal.logistic_coe a⟩

theorem IsReal.logistic {x : EReal} (hx : IsReal x) : IsReal (Ideal.logistic x) := by
  obtain ⟨a, rfl⟩ := hx
  obtain ⟨r, -, hr⟩ := logistic_coe_pos a
  exact ⟨r, hr⟩

/-- The reciprocal square root of a POSITIVE real is a real. -/
theorem isReal_rsqrt_of_pos {r : ℝ} (hr : 0 < r) : IsReal (Ideal.rsqrt (r : EReal)) := by
  refine ⟨(Real.sqrt r)⁻¹, ?_⟩
  rw [Ideal.rsqrt_coe, if_neg (not_lt.mpr hr.le), if_neg hr.ne']

/-- A finite sum of nonnegative reals, coerced, is a nonnegative real. -/
theorem sum_coe_nonneg {ι : Type} (s : Finset ι) (f : ι → ℝ) (h : ∀ i ∈ s, 0 ≤ f i) :
    ∃ r : ℝ, 0 ≤ r ∧ (∑ i ∈ s, ((f i : ℝ) : EReal)) = (r : EReal) := by
  classical
  refine ⟨∑ i ∈ s, f i, Finset.sum_nonneg h, ?_⟩
  induction s using Finset.induction_on with
  | empty => simp
  | insert a s ha ih =>
    rw [Finset.sum_insert ha, Finset.sum_insert ha, ih fun i hi => h i (Finset.mem_insert_of_mem hi), EReal.coe_add]

end Cert.Lib.Real

end
-- ==== Proof.LibProductLaws.lean ====
/-
  Laws of matrix products on the extended reals. Generic in every shape and extent; nothing mentions a program.

  * A matrix-unit product into a zero accumulator, its operands narrowed to a shorter float format first, is the
    host's `dot_general` of the operands themselves: a change of format is the identity on the extended reals and
    both are the same sum over the contraction index.
  * Associativity of the triple product  (h · S) · hᵀ = h · (S · hᵀ)  entry by entry. On the extended reals this
    needs distributivity, which fails at the infinities, so it is stated for REAL entries: there both sides are the
    coercion of one double sum of real numbers.
  * The logistic function is  1 / (1 + exp (−x)).
-/
import Idealize.ShloMosaic.PureOps.Ideal.Laws
import Idealize.ShloMosaic.Lib.ValueIdx
import proofs.«109711_j64295660421451_1_alg».proof.Proof.LibReal

noncomputable section

namespace Cert.Algebra

open Idealize.ShloMosaic Idealize.ShloMosaic.ValueIdx Cert.Lib.Real

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A kernel's matrix product of operands narrowed to another float format, into the zero accumulator, is the
    host's `dot_general` of the operands: entry by entry both are the sum over the contraction index. -/
theorem matmul_truncf_eq_dotGeneral {sl sr so : Shape} {ψ : FTy} (d : DotDims sl sr so)
    (x : FVec Ideal sl .f32) (y : FVec Ideal sr .f32) (hψ : ψ.bits < FTy.f32.bits) :
    matmul d none (truncf ψ x hψ) (truncf ψ y hψ) (constant so .f32 0x00000000#32) = Host.dotGeneral d none x y := by
  funext j
  simp only [matmul, Host.dotGeneral]
  rw [Ideal.matmul_constant_zero_apply, Ideal.dotGeneral_apply]
  rfl

/-- ASSOCIATIVITY OF THE TRIPLE PRODUCT AT AN ENTRY, for real entries:
    Σₖ (Σₗ h[p,l]·s[l,k]) · h[c,k]  =  Σₗ h[p,l] · (Σₖ s[l,k]·h[c,k]). -/
theorem triple_assoc {n d : ℕ} (h : (⟨2, ![n, d]⟩ : Shape).Idx → EReal) (s : (⟨2, ![d, d]⟩ : Shape).Idx → EReal)
    (hh : ∀ i, IsReal (h i)) (hs : ∀ i, IsReal (s i)) (p c : Fin n) :
    ∑ k : Fin d, (∑ l : Fin d, h (ix2 p l) * s (ix2 l k)) * h (ix2 c k)
      = ∑ l : Fin d, h (ix2 p l) * (∑ k : Fin d, s (ix2 l k) * h (ix2 c k)) := by
  choose hr hhr using hh
  choose sr hsr using hs
  simp only [hhr, hsr, ← EReal.coe_mul, ← coe_sum]
  refine congrArg _ ?_
  simp only [Finset.sum_mul, Finset.mul_sum]
  rw [Finset.sum_comm]
  exact Finset.sum_congr rfl fun l _ => Finset.sum_congr rfl fun k _ => by ring

/-- The logistic function spelt with the host's negate, exponential, add and divide. -/
theorem logistic_eq (x : EReal) :
    Ideal.logistic x = FloatOps.hostDivf (F := Ideal) (φ := .f32) (1 : EReal) (FloatOps.addf (F := Ideal) (φ := .f32) (1 : EReal)
      (FloatOps.hostUnary (F := Ideal) (φ := .f32) .exp (FloatOps.hostNegf (F := Ideal) (φ := .f32) x))) := rfl

end Cert.Algebra

end
-- ==== Proof.PayBridge.lean ====
/-
  The kernel's pure bodies as the reference's operations on whole arrays, on the extended reals.

  * A matrix product of operands narrowed to a shorter float format, accumulated into zeros, is the `dot_general` of
    the operands themselves (a change of format is the identity on the extended reals).
  * A shape cast to the same shape is the identity.
  * The exponential linear unit: the kernel computes  x if x > 0 else exp x − 1,  the reference
    x if x > 0 else 1 · expm1 (0 if x > 0 else x).  Where x > 0 both are x; elsewhere the inner select is x,
    expm1 x = exp x − 1, and the factor 1 (the word 0x3F800000) drops out.
-/
import proofs.«109711_j64295660421451_1_alg».proof.Proof.Gen.KernelIdeal.Skeleton
import proofs.«109711_j64295660421451_1_alg».proof.Proof.RefTerm
import proofs.«109711_j64295660421451_1_alg».proof.Proof.LibProductLaws
import Idealize.ShloMosaic.Lib.ValueIdx
import Idealize.ShloMosaic.Lib.Pipeline.Value
import Idealize.ShloMosaic.PureOps.Ideal.Laws

noncomputable section

namespace Cert.KernelIdeal.PayBridge

open Cert.KernelIdeal Cert.KernelIdeal.Gen Idealize.ShloMosaic Idealize.ShloMosaic.ValueIdx

/-- The word `0x3F800000` denotes the real number 1. -/
theorem ofBits_one_f32 : Ideal.ofBits .f32 0x3F800000#32 = 1 := by
  simp [Ideal.ofBits, Ideal.ieee, -EReal.coe_mul]; norm_num

/-- The two spellings of the exponential linear unit agree at every extended real: where the comparison bit
    `x > 0` is 1 both select `x`; where it is 0 the inner select is `x`, and `1 · (exp x − 1) = exp x − 1`. -/
theorem elu_scalar (x z : EReal) :
    Scalar.select (Ideal.cmp .ogt x z) x (Ideal.exp x - Ideal.ofBits .f32 0x3F800000#32)
      = Scalar.select (Ideal.cmp .ogt x z) x
          (Ideal.ofBits .f32 0x3F800000#32 * (Ideal.exp (Scalar.select (Ideal.cmp .ogt x z) z x) - 1)) := by
  by_cases hc : Ideal.cmp .ogt x z = 1#1
  · rw [hc, select_one, select_one]
  · rw [eq_zero_of_ne_one hc, select_zero, select_zero, select_zero, ofBits_one_f32, one_mul]

/-- The exponential linear unit on an array of any shape: the kernel's spelling is the reference's. -/
theorem elu_eq {s : Shape} (hb : (⟨0, ![]⟩ : Shape).BroadcastsInDim s (![] : Fin 0 → Fin s.rank))
    (x : FVec Ideal s .f32) :
    select (cmpf .ogt x (broadcast s (Scalar.ofBits .f32 0x00000000#32))) x
        (subf (exp x) (broadcast s (Scalar.ofBits .f32 0x3F800000#32)))
      = select (cmpf .ogt x (broadcastInDim s ![] hb (constant ⟨0, ![]⟩ .f32 0x00000000#32))) x
          (mulf (broadcastInDim s ![] hb (constant ⟨0, ![]⟩ .f32 0x3F800000#32))
            (Host.expm1 (select (cmpf .ogt x (broadcastInDim s ![] hb (constant ⟨0, ![]⟩ .f32 0x00000000#32)))
              (broadcastInDim s ![] hb (id (constant ⟨0, ![]⟩ .f32 0x00000000#32))) x))) := by
  funext i
  exact elu_scalar (x i) (Ideal.ofBits .f32 0x00000000#32)

/-- The first layer's product: the matrix product of the narrowed operands into zeros is `x · w`. -/
theorem pay0_eq (x : Vec Ideal S10000x128 .f32) (w : Vec Ideal S128x128 .f32) :
    k0_pay1 (F := Ideal) x w
      = Host.dotGeneral (φ₁ := .f32) (φ₂ := .f32) Cert.ReferenceIdeal.dot_S10000x128_S128x128_S10000x128_1_0_0_1_n_n none x w :=
  Cert.Algebra.matmul_truncf_eq_dotGeneral
    Cert.ReferenceIdeal.dot_S10000x128_S128x128_S10000x128_1_0_0_1_n_n x w _

/-- The second layer's product: `elu x · w`. -/
theorem pay1_eq (x : Vec Ideal S10000x128 .f32) (w : Vec Ideal S128x128 .f32) :
    k1_pay1 (F := Ideal) x w
      = Host.dotGeneral (φ₁ := .f32) (φ₂ := .f32) Cert.ReferenceIdeal.dot_S10000x128_S128x128_S10000x128_1_0_0_1_n_n none
          (Cert.ReferenceIdeal.Term.elu128 (F := Ideal) x) w := by
  unfold k1_pay1
  dsimp only
  rw [shapeCast_self, elu_eq Cert.ReferenceIdeal.Facts₀.bcast_S_S10000x128 x]
  exact Cert.Algebra.matmul_truncf_eq_dotGeneral
    Cert.ReferenceIdeal.dot_S10000x128_S128x128_S10000x128_1_0_0_1_n_n _ w _

/-- The third layer's product: `elu x · w`, onto 64 columns. -/
theorem pay2_eq (x : Vec Ideal S10000x128 .f32) (w : Vec Ideal S128x64 .f32) :
    k2_pay1 (F := Ideal) x w
      = Host.dotGeneral (φ₁ := .f32) (φ₂ := .f32) Cert.ReferenceIdeal.dot_S10000x128_S128x64_S10000x64_1_0_0_1_n_n none
          (Cert.ReferenceIdeal.Term.elu128 (F := Ideal) x) w := by
  unfold k2_pay1
  dsimp only
  rw [shapeCast_self, elu_eq Cert.ReferenceIdeal.Facts₀.bcast_S_S10000x128 x]
  exact Cert.Algebra.matmul_truncf_eq_dotGeneral
    Cert.ReferenceIdeal.dot_S10000x128_S128x64_S10000x64_1_0_0_1_n_n _ w _

/-- The last layer's exponential linear unit, on 64 columns. -/
theorem pay3_eq (x : Vec Ideal S10000x64 .f32) :
    k3_pay1 (F := Ideal) x = Cert.ReferenceIdeal.Term.elu64 (F := Ideal) x := by
  unfold k3_pay1
  dsimp only
  rw [shapeCast_self]
  exact elu_eq Cert.ReferenceIdeal.Facts₀.bcast_S_S10000x64 x

/-- The embedding times the symmetrised weight: `h · s`. -/
theorem pay4_eq (h : Vec Ideal S10000x64 .f32) (s : Vec Ideal S64x64 .f32) :
    k4_pay1 (F := Ideal) h s
      = Host.dotGeneral (φ₁ := .f32) (φ₂ := .f32) Cert.KernelIdeal.dot_S10000x64_S64x64_S10000x64_1_0_0_1_n_n none h s := by
  unfold k4_pay1
  dsimp only
  rw [shapeCast_self, shapeCast_self]
  exact Cert.Algebra.matmul_truncf_eq_dotGeneral
    Cert.KernelIdeal.dot_S10000x64_S64x64_S10000x64_1_0_0_1_n_n h s _

end Cert.KernelIdeal.PayBridge

end
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.LibTranspose.lean ====
/-
  A matrix transposed, read at an entry: the transpose of an `[a, b]` matrix holds at `(k, c)` the matrix's entry at
  `(c, k)`. General in the two extents and the element type; the library's read-at-an-index lemma for a transpose with the
  permutation `[1, 0]`, its per-axis obligation discharged for indices written by coordinates.
-/
import Idealize.ShloMosaic.Lib.Pipeline.Value
import Idealize.ShloMosaic.Lib.ValueIdx

namespace Cert.LibTranspose

open Idealize.ShloMosaic Idealize.ShloMosaic.ValueIdx

/-- A matrix `[a, b]` transposed reads, at `(k, c)`, the matrix at `(c, k)`. -/
theorem transpose_ab_apply {α : Type} {a b : ℕ} (x : (⟨2, ![a, b]⟩ : Shape).Idx → α)
    (h : (⟨2, ![a, b]⟩ : Shape).Transposes [1, 0] ⟨2, ![b, a]⟩) (k : Fin b) (c : Fin a) :
    transpose ⟨2, ![b, a]⟩ [1, 0] x h (ix2 k c) = x (ix2 c k) :=
  transpose_apply [1, 0] x h (ix2 k c) (ix2 c k) fun ax => by
    match ax with
    | ⟨0, _⟩ => rfl
    | ⟨1, _⟩ => rfl

end Cert.LibTranspose
-- ==== Proof.BilinearBridge.lean ====
/-
  The last step: the two programs' results are one array.

  With h : [10000, 64] the node embedding and s : [64, 64] the symmetrised weight, one program forms the logistic of
  (h · s) · hᵀ — entry (p, c) is  logistic (Σₖ (Σₗ h[p,l] · s[l,k]) · h[c,k]) — and the other spells
  1 / (1 + exp (−(h · (s · hᵀ)))), whose exponent at (p, c) is  Σₗ h[p,l] · (Σₖ s[l,k] · hᵀ[k,c])  with
  hᵀ[k,c] = h[c,k]. The two double sums are equal when the entries of h and s are real (associativity of the triple
  product needs distributivity, which holds on the reals and fails at the infinities), and the logistic function IS
  x ↦ 1 / (1 + exp (−x)), the constant 1.0 being the real 1. So the two arrays agree at every entry.
-/
import proofs.«109711_j64295660421451_1_alg».proof.Proof.RefTerm
import proofs.«109711_j64295660421451_1_alg».proof.Proof.LibProductLaws
import proofs.«109711_j64295660421451_1_alg».proof.Proof.LibRowsLogistic
import proofs.«109711_j64295660421451_1_alg».proof.Proof.LibPlainDot
import proofs.«109711_j64295660421451_1_alg».proof.Proof.LibTranspose
import proofs.«109711_j64295660421451_1_alg».proof.Proof.LibReal
import Idealize.ShloMosaic.Lib.IdealHost
import Idealize.ShloMosaic.Lib.ValueIdx
import Idealize.ShloMosaic.PureOps.Ideal.Laws

noncomputable section

namespace Cert.BilinearBridge

open Cert.ReferenceIdeal Cert.ReferenceIdeal.Facts₀ Cert.ReferenceIdeal.Facts Cert.ReferenceIdeal.Term Cert.Lib.Real
  Idealize.ShloMosaic Idealize.ShloMosaic.ValueIdx

section
variable (h : (⟨S10000x64, .f32⟩ : BufTy).Contents (Elt Ideal)) (s : (⟨S64x64, .f32⟩ : BufTy).Contents (Elt Ideal))

/-- The broadcast constant 1.0 reads the real 1 at every entry. -/
theorem const_one_apply (j : S10000x10000.Idx) :
    broadcastInDim S10000x10000 ![] bcast_S_S10000x10000 (constant (F := Ideal) S_ .f32 0x3F800000#32) j = (1 : EReal) := by
  unfold broadcastInDim
  rw [constant_apply, Ideal.ofBits_one_f32]

/-- The exponent of the second program at (p, c):  (h · (s · hᵀ))[p, c] = Σₗ h[p,l] · (Σₖ s[l,k] · h[c,k]).
    The outer product contracts h's columns with the rows of s · hᵀ; the inner one contracts s's columns with the rows
    of hᵀ; and hᵀ[k, c] = h[c, k]. -/
theorem ref_exponent_apply (p c : Fin 10000) :
    Host.dotGeneral (F := Ideal) (φ₁ := .f32) (φ₂ := .f32) dot_S10000x64_S64x10000_S10000x10000_1_0_0_1_n_n none h
        (Host.dotGeneral (F := Ideal) (φ₁ := .f32) (φ₂ := .f32) dot_S64x64_S64x10000_S64x10000_1_0_0_1_n_n none s
          (transpose S64x10000 [1, 0] h transposes_S10000x64_S64x10000_1_0)) (ix2 p c)
      = ∑ l : Fin 64, h (ix2 p l) * ∑ k : Fin 64, s (ix2 l k) * h (ix2 c k) := by
  simp only [Host.dotGeneral]
  rw [Cert.LibPlainDot.dotGeneral_apply _ ⟨rfl, rfl, rfl, rfl, rfl, rfl⟩]
  refine Finset.sum_congr rfl fun l _ => ?_
  rw [Cert.LibPlainDot.dotGeneral_apply _ ⟨rfl, rfl, rfl, rfl, rfl, rfl⟩]
  refine congrArg _ (Finset.sum_congr rfl fun k _ => ?_)
  rw [Cert.LibTranspose.transpose_ab_apply]

/-- The second program's result at (p, c): 1 / (1 + exp (−·)) of its exponent, the two constants being the real 1. -/
theorem bilinear_apply (p c : Fin 10000) :
    Term.bilinear (F := Ideal) h s (ix2 p c)
      = FloatOps.hostDivf (F := Ideal) (φ := .f32) (1 : EReal) (FloatOps.addf (F := Ideal) (φ := .f32) (1 : EReal)
          (FloatOps.hostUnary (F := Ideal) (φ := .f32) .exp (FloatOps.hostNegf (F := Ideal) (φ := .f32)
            (∑ l : Fin 64, h (ix2 p l) * ∑ k : Fin 64, s (ix2 l k) * h (ix2 c k))))) := by
  unfold Term.bilinear
  simp only [Host.divf, Host.exp, Host.negf, addf]
  rw [const_one_apply, ref_exponent_apply]

variable (D4 : DotDims ⟨2, ![10000, 64]⟩ ⟨2, ![64, 64]⟩ ⟨2, ![10000, 64]⟩) (hD : Cert.LibPlainDot.IsPlain D4)
  (hh : ∀ i, IsReal (h i)) (hs : ∀ i, IsReal (s i))
include hD hh hs

/-- The first program's argument of the logistic at (p, c) is the same double sum, the other way round:
    Σₖ (h · s)[p,k] · h[c,k] = Σₖ (Σₗ h[p,l] · s[l,k]) · h[c,k] = Σₗ h[p,l] · (Σₖ s[l,k] · h[c,k])  for real entries. -/
theorem kernel_exponent_apply (p c : Fin 10000) :
    ∑ k : Fin 64, (Host.dotGeneral (F := Ideal) (φ₁ := .f32) (φ₂ := .f32) D4 none h s) (ix2 p k) * h (ix2 c k)
      = ∑ l : Fin 64, h (ix2 p l) * ∑ k : Fin 64, s (ix2 l k) * h (ix2 c k) := by
  rw [← Cert.Algebra.triple_assoc h s hh hs p c]
  refine Finset.sum_congr rfl fun k _ => ?_
  simp only [Host.dotGeneral]
  rw [Cert.LibPlainDot.dotGeneral_apply D4 hD]

/-- The two results agree at the entry (p, c). -/
theorem bilinear_bridge_at (p c : Fin 10000) :
    Cert.Algebra.rowsLogistic (n := 10000) (d := 64) (Host.dotGeneral (F := Ideal) (φ₁ := .f32) (φ₂ := .f32) D4 none h s) h (ix2 p c)
      = Term.bilinear (F := Ideal) h s (ix2 p c) := by
  rw [Cert.Algebra.rowsLogistic_apply, kernel_exponent_apply h s D4 hD hh hs p c, bilinear_apply]
  exact Cert.Algebra.logistic_eq _

end

/-- THE TWO RESULTS ARE EQUAL:  logistic ((h · s) · hᵀ) = 1 / (1 + exp (−(h · (s · hᵀ))))  for real h and s. -/
theorem bilinear_bridge (D4 : DotDims ⟨2, ![10000, 64]⟩ ⟨2, ![64, 64]⟩ ⟨2, ![10000, 64]⟩) (hD : Cert.LibPlainDot.IsPlain D4)
    (h : (⟨Cert.ReferenceIdeal.S10000x64, .f32⟩ : BufTy).Contents (Elt Ideal)) (s : (⟨Cert.ReferenceIdeal.S64x64, .f32⟩ : BufTy).Contents (Elt Ideal))
    (hh : ∀ i, Cert.Lib.Real.IsReal (h i)) (hs : ∀ i, Cert.Lib.Real.IsReal (s i)) :
    Cert.Algebra.rowsLogistic (n := 10000) (d := 64) (Host.dotGeneral (F := Ideal) (φ₁ := .f32) (φ₂ := .f32) D4 none h s) h = Cert.ReferenceIdeal.Term.bilinear (F := Ideal) h s := by
  funext i
  rw [eq_ix2 i]
  exact bilinear_bridge_at h s D4 hD hh hs (i 0) (i 1)

end Cert.BilinearBridge

end
-- ==== Proof.RealChain.lean ====
/-
  The node embedding is real-valued.

  On the extended reals every stage of the three-layer network maps arrays of real numbers to arrays of real
  numbers, whatever the integer index arrays hold:
    * a broadcast, a gather and a transpose only MOVE entries: each result entry is some entry of the operand;
    * a select returns, at every index, one of its two branches;
    * an entry of a matrix product is a finite sum of products of entries of the two factors;
    * an entry of an accumulating scatter is the operand's entry plus a finite sum of entries of the updates;
    * expm1 of a real y is exp y − 1, and the constants 0, 1 and ½ are real.
  The reals are closed under +, −, ·, finite sums and exp, so the embedding
      elu (spmm (elu (spmm (elu (spmm (x · W0)) · W1)) · W2))
  is real at every index as soon as x, val, W0, W1, W2 are, and so is (Wb + Wbᵀ) · ½ as soon as Wb is.

  The index arrays never matter: an out-of-range column index is clamped by the gather (the entry read is still an
  entry of the table) and an out-of-range row index drops its update (the sum has one term fewer).
-/
import proofs.«109711_j64295660421451_1_alg».proof.Proof.RefTerm
import proofs.«109711_j64295660421451_1_alg».proof.Proof.LibReal
import Idealize.ShloMosaic.PureOps.Ideal.Laws
import Idealize.ShloMosaic.Lib.ValueIdx
import Idealize.ShloMosaic.Lib.IdealHost

noncomputable section

namespace Cert.ReferenceIdeal.RealChain

open Cert.ReferenceIdeal Cert.ReferenceIdeal.Term Cert.Lib.Real Idealize.ShloMosaic Idealize.ShloMosaic.ValueIdx

/-! ## The three constants -/

/-- The pattern of +0.0 is the real 0. -/
theorem isReal_const_zero : IsReal (Ideal.ofBits .f32 0x00000000#32) := by
  rw [Ideal.ofBits_zero_f32]; exact isReal_zero

/-- The pattern of 1.0 is the real 1. -/
theorem isReal_const_one : IsReal (Ideal.ofBits .f32 0x3F800000#32) := by
  rw [Ideal.ofBits_one_f32]; exact isReal_one

/-- The pattern of 0.5 (sign 0, biased exponent 126, significand 0) is the real 2⁻¹. -/
theorem isReal_const_half : IsReal (Ideal.ofBits .f32 0x3F000000#32) := by
  refine ⟨(1 : ℝ) / 2, ?_⟩
  simp [Ideal.ofBits, Ideal.ieee, -EReal.coe_mul]; norm_num

/-! ## Operations that move entries, over any shapes

Each result entry of a broadcast, a gather or a transpose IS an entry of the operand (by definition the operand read
at a computed index), so a property of all the operand's entries holds for all the result's. -/

section Moves
variable {s t : Shape}

/-- Every entry of a broadcast is an entry of the operand. -/
theorem broadcastInDim_isReal (dims : Fin s.rank → Fin t.rank) (h : s.BroadcastsInDim t dims) (x : s.Idx → EReal)
    (hx : ∀ k, IsReal (x k)) (j : t.Idx) : IsReal (broadcastInDim t dims h x j) := by
  unfold broadcastInDim; exact hx _

/-- Every entry of a gather is an entry of the table: the start indices only choose WHICH entry, and are clamped so
    that one is always chosen. -/
theorem gather_isReal {si : Shape} {w : Nat} (d : GatherDims s si t) (x : s.Idx → EReal) (idx : IVec si w)
    (hx : ∀ k, IsReal (x k)) (j : t.Idx) : IsReal (Host.gather d x idx j) := by
  unfold Host.gather; exact hx _

/-- Every entry of a transpose is an entry of the operand. -/
theorem transpose_isReal (perm : List (Fin s.rank)) (h : s.Transposes perm t) (x : s.Idx → EReal)
    (hx : ∀ k, IsReal (x k)) (j : t.Idx) : IsReal (transpose t perm x h j) := by
  unfold transpose; exact hx _

/-- A select is, at each index, one of its two branches. -/
theorem select_isReal (c : IVec s 1) (a b : s.Idx → EReal) (i : s.Idx) (ha : IsReal (a i)) (hb : IsReal (b i)) :
    IsReal (select c a b i) := by
  rw [select_apply]; unfold Scalar.select; split <;> assumption

/-- A broadcast scalar constant is real when its pattern denotes a real. -/
theorem const_isReal (dims : Fin S_.rank → Fin t.rank) (h : S_.BroadcastsInDim t dims) (b : BitVec 32)
    (hb : IsReal (Ideal.ofBits .f32 b)) (j : t.Idx) :
    IsReal (broadcastInDim t dims h (constant (F := Ideal) S_ .f32 b) j) :=
  broadcastInDim_isReal dims h _ (fun _ => hb) j

end Moves

/-! ## Operations that sum entries, over any shapes -/

/-- An entry of a product is the sum, over the contracted coordinates, of products of an entry of each factor. -/
theorem dot_isReal {sl sr so : Shape} (D : DotDims sl sr so) (x : FVec Ideal sl .f32) (y : FVec Ideal sr .f32)
    (hx : ∀ k, IsReal (x k)) (hy : ∀ k, IsReal (y k)) (j : so.Idx) : IsReal (Host.dotGeneral D none x y j) := by
  show IsReal (FloatOps.dotGeneral D none .single x y j)
  rw [Ideal.dotGeneral_apply]
  exact IsReal.sum _ _ fun k _ => (hx _).mul (hy _)

/-- An entry of an accumulating scatter is the operand's entry plus the sum of the update entries that land on it
    (none, when no index names it). -/
theorem scatterAdd_isReal {s si u : Shape} {w : Nat} (d : ScatterDims s si u) (x : FVec Ideal s .f32) (idx : IVec si w)
    (upd : FVec Ideal u .f32) (hx : ∀ k, IsReal (x k)) (hu : ∀ k, IsReal (upd k)) (i : s.Idx) :
    IsReal (Host.scatterAdd d x idx upd i) := by
  show IsReal (Ideal.hostScatterAdd d x idx upd i)
  unfold Ideal.hostScatterAdd
  exact (hx i).add (IsReal.sum _ _ fun j _ => hu j)

/-! ## The exponential linear unit, over any shape

elu x = x where x > 0, and 1 · (exp y − 1) elsewhere, with y = 0 where x > 0 and y = x elsewhere. Whatever the two
comparisons say, both branches are real: x is, and y is 0 or x, so exp y − 1 is. -/

theorem elu_isReal {s : Shape} (hb : S_.BroadcastsInDim s (![] : Fin 0 → Fin s.rank)) (c c' : IVec s 1)
    (x : FVec Ideal s .f32) (hx : ∀ i, IsReal (x i)) (i : s.Idx) :
    IsReal (select c x
      (mulf (broadcastInDim s ![] hb (constant S_ .f32 0x3F800000#32))
        (Host.expm1 (select c' (broadcastInDim s ![] hb (id (constant S_ .f32 0x00000000#32))) x))) i) := by
  refine select_isReal _ _ _ _ (hx i) ?_
  rw [mulf_apply]
  refine (const_isReal _ hb _ isReal_const_one i).mul ?_
  show IsReal (Ideal.exp _ - 1)
  exact (IsReal.exp (select_isReal _ _ _ _ (const_isReal _ hb _ isReal_const_zero i) (hx i))).sub isReal_one

/-! ## The stages of the reference -/

section Stages
variable (row col : (⟨S320000, .i32⟩ : BufTy).Contents (Elt Ideal)) (val : (⟨S320000, .f32⟩ : BufTy).Contents (Elt Ideal))
  (hval : ∀ i, IsReal (val i))
include hval

/-- The sparse product on 128 columns: zeros, plus sums of val[e] · h[col[e], ·]. -/
theorem spmm128_isReal (h : (⟨S10000x128, .f32⟩ : BufTy).Contents (Elt Ideal)) (hh : ∀ i, IsReal (h i)) :
    ∀ i, IsReal (spmm128 (F := Ideal) row col val h i) := by
  intro i
  unfold spmm128
  refine scatterAdd_isReal _ _ _ _ (fun k => const_isReal _ _ _ isReal_const_zero k) (fun k => ?_) i
  rw [mulf_apply]
  exact (broadcastInDim_isReal _ _ _ (fun k' => broadcastInDim_isReal _ _ _ hval k') k).mul
    (gather_isReal _ _ _ hh k)

/-- The sparse product on 64 columns. -/
theorem spmm64_isReal (h : (⟨S10000x64, .f32⟩ : BufTy).Contents (Elt Ideal)) (hh : ∀ i, IsReal (h i)) :
    ∀ i, IsReal (spmm64 (F := Ideal) row col val h i) := by
  intro i
  unfold spmm64
  refine scatterAdd_isReal _ _ _ _ (fun k => const_isReal _ _ _ isReal_const_zero k) (fun k => ?_) i
  rw [mulf_apply]
  exact (broadcastInDim_isReal _ _ _ (fun k' => broadcastInDim_isReal _ _ _ hval k') k).mul
    (gather_isReal _ _ _ hh k)

end Stages

/-- elu on 128 columns. -/
theorem elu128_isReal (x : (⟨S10000x128, .f32⟩ : BufTy).Contents (Elt Ideal)) (hx : ∀ i, IsReal (x i)) :
    ∀ i, IsReal (elu128 (F := Ideal) x i) := by
  intro i; unfold elu128; exact elu_isReal _ _ _ x hx i

/-- elu on 64 columns. -/
theorem elu64_isReal (x : (⟨S10000x64, .f32⟩ : BufTy).Contents (Elt Ideal)) (hx : ∀ i, IsReal (x i)) :
    ∀ i, IsReal (elu64 (F := Ideal) x i) := by
  intro i; unfold elu64; exact elu_isReal _ _ _ x hx i

/-! ## The two results -/

/-- THE EMBEDDING IS REAL: three layers, each a product with a real weight matrix, a sparse product with real edge
    values, and an elu; each maps real arrays to real arrays, whatever row and col hold. -/
theorem embed_isReal (x : (⟨S10000x128, .f32⟩ : BufTy).Contents (Elt Ideal))
    (row col : (⟨S320000, .i32⟩ : BufTy).Contents (Elt Ideal)) (val : (⟨S320000, .f32⟩ : BufTy).Contents (Elt Ideal))
    (w0 w1 : (⟨S128x128, .f32⟩ : BufTy).Contents (Elt Ideal)) (w2 : (⟨S128x64, .f32⟩ : BufTy).Contents (Elt Ideal))
    (hx : ∀ i, IsReal (x i)) (hval : ∀ i, IsReal (val i)) (hw0 : ∀ i, IsReal (w0 i)) (hw1 : ∀ i, IsReal (w1 i))
    (hw2 : ∀ i, IsReal (w2 i)) :
    ∀ i, IsReal (Term.embed (F := Ideal) x row col val w0 w1 w2 i) := by
  unfold Term.embed
  have h1 := elu128_isReal _ (spmm128_isReal row col val hval _
    (dot_isReal dot_S10000x128_S128x128_S10000x128_1_0_0_1_n_n x w0 hx hw0))
  have h2 := elu128_isReal _ (spmm128_isReal row col val hval _
    (dot_isReal dot_S10000x128_S128x128_S10000x128_1_0_0_1_n_n _ w1 h1 hw1))
  exact elu64_isReal _ (spmm64_isReal row col val hval _
    (dot_isReal dot_S10000x128_S128x64_S10000x64_1_0_0_1_n_n _ w2 h2 hw2))

/-- THE SYMMETRISED WEIGHT IS REAL: (Wb + Wbᵀ) · ½, a sum of two entries of Wb times the real ½. -/
theorem symHalf_isReal (wb : (⟨S64x64, .f32⟩ : BufTy).Contents (Elt Ideal)) (h : ∀ i, IsReal (wb i)) :
    ∀ i, IsReal (Term.symHalf (F := Ideal) wb i) := by
  intro i
  unfold Term.symHalf
  rw [mulf_apply, addf_apply]
  exact ((h i).add (transpose_isReal _ _ _ h i)).mul (const_isReal _ _ _ isReal_const_half i)

end Cert.ReferenceIdeal.RealChain

end
-- ==== Proof.PreReal.lean ====
/-
  From the finiteness precondition to real entries.

  The precondition computes, for each of the six floating-point argument arrays `a`, the bit `all (|a| < +∞)`, and
  conjoins the six bits. On the extended reals `|x| = max x (-x)`, and `max x (-x) < ⊤` fails both at `x = ⊤`
  (where `max ⊤ ⊥ = ⊤`) and at `x = ⊥` (where `-⊥ = ⊤`); so the bit being 1 says that every entry of `a` is the
  coercion of a real number. A conjunction of bits is 1 exactly when each is, and a reduction by `and` over all axes
  is 1 only if every reduced element is 1.
-/
import proofs.«109711_j64295660421451_1_alg».proof.Pre_finite_inputs
import proofs.«109711_j64295660421451_1_alg».proof.Proof.Gen.Pre_finite_inputs
import proofs.«109711_j64295660421451_1_alg».proof.Proof.LibReal
import Idealize.ShloMosaic.Lib.ReduceAll
import Idealize.ShloMosaic.Lib.ValueIdx
import Idealize.ShloMosaic.PureOps.Ideal

noncomputable section

namespace Cert.Pre_finite_inputs.PreReal

open Cert.Pre_finite_inputs Cert.Lib.Real Idealize.ShloMosaic

/-- The rank-0 shape has exactly one index. -/
instance subsingleton_S_Idx : Subsingleton S_.Idx := ⟨fun a b => funext fun d => d.elim0⟩

/-- The bit pattern `0x7F800000` denotes `+∞`. -/
theorem ofBits_inf : Ideal.ofBits .f32 0x7F800000#32 = (⊤ : EReal) := by
  simp [Ideal.ofBits, Ideal.ieee]

/-- An extended real whose absolute value `max x (-x)` is strictly below `+∞` is a real number:
    at `⊤` the maximum is `⊤`, and at `⊥` the negation is `⊤`. -/
theorem isReal_of_abs_lt_top (x : EReal) (h : max x (-x) < ⊤) : IsReal x := by
  induction x using EReal.rec with
  | bot => simp at h
  | coe r => exact ⟨r, rfl⟩
  | top => simp at h

/-- The comparison bit `|x| < +∞` being 1 says `x` is a real number. -/
theorem isReal_of_cmp (x : EReal)
    (h : FloatOps.cmpf (F := Ideal) (φ := .f32) .olt (FloatOps.hostAbsf (F := Ideal) (φ := .f32) x)
          (FloatOps.ofBits (F := Ideal) .f32 0x7F800000#32) = 1#1) : IsReal x := by
  apply isReal_of_abs_lt_top
  have h' : Ideal.cmp .olt (max x (-x)) (Ideal.ofBits .f32 0x7F800000#32) = 1#1 := h
  rw [ofBits_inf] at h'
  unfold Ideal.cmp at h'
  by_contra hn
  simp [hn] at h'

/-- An array whose bit `all (|a| < +∞)` (the reduction by `and`, over all axes, of the elementwise comparison of
    `|a|` with the broadcast constant `+∞`) is 1 has real entries. -/
theorem real_of_all {s : Shape} {axes : List (Fin s.rank)}
    (hb : S_.BroadcastsInDim s (![] : Fin 0 → Fin s.rank)) (hr : s.ReducesTo axes S_) (hu : 0 < S_.numel)
    (a : FVec Ideal s .f32) (init : IVec S_ 1)
    (e : Host.reduce IntOp.andi
          (cmpf .olt (Host.absf a) (broadcastInDim s ![] hb (constant S_ .f32 0x7F800000#32))) init hr hu
          ValueIdx.ix0 = 1#1) :
    ∀ i, IsReal (a i) := by
  intro i
  have hi := Host.reduce_andi_all _ init hr hu ValueIdx.ix0 e i
  exact isReal_of_cmp (a i) hi

/-- The precondition holding says every entry of each of the six floating-point arrays is a real number. -/
theorem real_of_fn (a0 : FVec Ideal S10000x128 .f32) (a1 : IVec S320000 32) (a2 : IVec S320000 32)
    (a3 : FVec Ideal S320000 .f32) (a4 : FVec Ideal S128x128 .f32) (a5 : FVec Ideal S128x128 .f32)
    (a6 : FVec Ideal S128x64 .f32) (a7 : FVec Ideal S64x64 .f32)
    (h : Cert.Pre_finite_inputs.fn (F := Ideal) a0 a1 a2 a3 a4 a5 a6 a7 = fun _ => 1#1) :
    (∀ i, IsReal (a0 i)) ∧ (∀ i, IsReal (a3 i)) ∧ (∀ i, IsReal (a4 i)) ∧ (∀ i, IsReal (a5 i)) ∧
      (∀ i, IsReal (a6 i)) ∧ (∀ i, IsReal (a7 i)) := by
  -- the claimed value at the one index of the rank-0 result: a conjunction of six bits
  have h0 := congrFun h ValueIdx.ix0
  dsimp only [fn, fn_part1, Idealize.ShloMosaic.andi] at h0
  -- a conjunction of bits is 1 exactly when each bit is
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all _ _ _ a0 _ e0, real_of_all _ _ _ a3 _ e3, real_of_all _ _ _ a4 _ e4,
    real_of_all _ _ _ a5 _ e5, real_of_all _ _ _ a6 _ e6, real_of_all _ _ _ a7 _ e7⟩

end Cert.Pre_finite_inputs.PreReal

end
-- ==== Proof.Bridge.lean ====
/-
  The kernel's result is the reference's function of the arguments.

  Read back through the program the idealized kernel's result array is  logistic of the pairwise row inner
  products of (h · S) and h,  with h the three-layer embedding and S the symmetrised weight, the layers still
  spelt with the kernel's own bodies. Each body is the reference's operation on whole arrays (a narrowed matrix
  product into zeros is the plain product; the two spellings of the exponential linear unit agree), so h is the
  reference's embedding and S its weight. Under the precondition every float argument is finite, so every entry
  of h and of S is a real number, and on real entries  (h · S) · hᵀ = h · (S · hᵀ)  and the logistic function is
  1 / (1 + exp (−x)): the kernel's result is the reference's.
-/
import proofs.«109711_j64295660421451_1_alg».proof.Defs
import proofs.«109711_j64295660421451_1_alg».proof.Proof.KernelFold
import proofs.«109711_j64295660421451_1_alg».proof.Proof.PayBridge
import proofs.«109711_j64295660421451_1_alg».proof.Proof.BilinearBridge
import proofs.«109711_j64295660421451_1_alg».proof.Proof.RealChain
import proofs.«109711_j64295660421451_1_alg».proof.Proof.PreReal
import proofs.«109711_j64295660421451_1_alg».proof.Proof.Gen.Pre_finite_inputs

noncomputable section

namespace Cert.Bridge

open Cert.KernelIdeal Cert.KernelIdeal.Gen
open Idealize.ShloMosaic Idealize.ShloMosaic.TcCoe Idealize.SL Idealize.SL.Sem
open Cert.Lib.Real
open Cert.ReferenceIdeal (Term.result Term.embed Term.symHalf Term.bilinear)

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)

/-- With real float arguments the kernel's result array is the reference's function of the arguments. -/
theorem kernel_result (hx : ∀ i, IsReal (A0 i)) (hval : ∀ i, IsReal (A3 i)) (hw0 : ∀ i, IsReal (A4 i))
    (hw1 : ∀ i, IsReal (A5 i)) (hw2 : ∀ i, IsReal (A6 i)) (hwb : ∀ i, IsReal (A7 i)) :
    V10 m ρ c main_v48 = Term.result (F := Ideal) A0 A1 A2 A3 A4 A5 A6 A7 := by
  refine (Cert.KernelIdeal.Value6.out_eq m ρ c).trans ?_
  rw [Cert.KernelIdeal.PayBridge.pay0_eq, Cert.KernelIdeal.PayBridge.pay1_eq, Cert.KernelIdeal.PayBridge.pay2_eq,
    Cert.KernelIdeal.PayBridge.pay3_eq, Cert.KernelIdeal.PayBridge.pay4_eq]
  exact Cert.BilinearBridge.bilinear_bridge dot_S10000x64_S64x64_S10000x64_1_0_0_1_n_n ⟨rfl, rfl, rfl, rfl, rfl, rfl⟩
    (Term.embed (F := Ideal) A0 A1 A2 A3 A4 A5 A6) (Term.symHalf (F := Ideal) A7)
    (Cert.ReferenceIdeal.RealChain.embed_isReal A0 A1 A2 A3 A4 A5 A6 hx hval hw0 hw1 hw2)
    (Cert.ReferenceIdeal.RealChain.symHalf_isReal A7 hwb)

/-- Under the precondition (every float argument finite) the kernel's result array is the reference's function of
    the arguments. -/
theorem kernel_value (hpre : Cert.Pre_KernelIdeal (hPre_finite_inputs := Cert.Pre_finite_inputs.Gen.facts) m) :
    V10 m ρ c main_v48 = Term.result (F := Ideal) A0 A1 A2 A3 A4 A5 A6 A7 := by
  obtain ⟨h0, h3, h4, h5, h6, h7⟩ := Cert.Pre_finite_inputs.PreReal.real_of_fn _ _ _ _ _ _ _ _ (hpre c)
  exact kernel_result m ρ c h0 h3 h4 h5 h6 h7

end Cert.Bridge

end
-- ==== Proof.lean ====
/-
  A three-layer graph network followed by a bilinear decoder, kernel against reference, on the extended reals.

  With  spmm(h)[i] = Σ_{e : row[e] = i} val[e] · h[col[e]]  (a row gather, a scaling by the edge's value, an
  accumulating row scatter into zeros) and  elu(x) = x if x > 0 else exp x − 1,  both programs compute the node
  embedding  h = elu(spmm(elu(spmm(elu(spmm(x·W0))·W1))·W2)),  the symmetric weight  S = (Wb + Wbᵀ)·½  and the
  logistic of the bilinear form of every pair of nodes. They differ in three places, none of which is a difference
  on the extended reals under the precondition:
    * the kernel narrows the operands of each matrix product to a shorter float format first — a change of format
      is the identity there;
    * the reference spells elu as  x if x > 0 else 1 · expm1 (0 if x > 0 else x)  and the logistic function as
      1 / (1 + exp (−x));
    * the kernel forms  (h · S) · hᵀ  row slab by row slab, the reference  h · (S · hᵀ):  equal because, the float
      arguments being finite, every entry of h and S is a real number, and on real numbers the triple product is
      associative (on the extended reals distributivity fails at the infinities, which is where the precondition
      is used).
  The frames of the two kernel programs are the generated ones; the reference's is its run with the result dropped.
  The idealization rewrote nothing, so its statement is `True`.
-/
import proofs.«109711_j64295660421451_1_alg».proof.Defs
import proofs.«109711_j64295660421451_1_alg».proof.Proof.Gen.Kernel
import proofs.«109711_j64295660421451_1_alg».proof.Proof.Gen.Kernel.Frame
import proofs.«109711_j64295660421451_1_alg».proof.Proof.Gen.KernelIdeal
import proofs.«109711_j64295660421451_1_alg».proof.Proof.Gen.KernelIdeal.Frame
import proofs.«109711_j64295660421451_1_alg».proof.Proof.Gen.ReferenceIdeal
import proofs.«109711_j64295660421451_1_alg».proof.Proof.Gen.Pre_finite_inputs
import proofs.«109711_j64295660421451_1_alg».proof.Proof.KernelRun
import proofs.«109711_j64295660421451_1_alg».proof.Proof.RefRun
import proofs.«109711_j64295660421451_1_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments as they were. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories that agree on the arguments both programs end with the reference's function of the arguments in
    their result buffers: the kernel by its run read back and the bridge, the reference by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Term.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Bridge.kernel_value m ρ c hpre), (h c).2⟩)
      (Cert.KernelIdeal.Run.run_value (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
